-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x1024 : Shape := ⟨3, ![8, 16384, 1024]⟩
abbrev S64x1024 : Shape := ⟨2, ![64, 1024]⟩
abbrev S_ : Shape := ⟨0, ![]⟩

class Facts : Prop where
  bcast_S_S8x16384x1024 : S_.BroadcastsInDim S8x16384x1024 (![] : Fin 0 → Fin S8x16384x1024.rank)
  reducesTo_S8x16384x1024_S_d0_1_2 : S8x16384x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S8x16384x1024 .f32) (main_arg1 : FVec F S64x1024 .f32) : IVec S_ 1 :=
  let main_v0 : FVec F S8x16384x1024 .f32 := Host.absf main_arg0
  let main_cst : FVec F S_ .f32 := constant S_ .f32 0x7F800000#32
  let main_v1 : FVec F S8x16384x1024 .f32 := broadcastInDim S8x16384x1024 ![] bcast_S_S8x16384x1024 main_cst
  let main_v2 : IVec S8x16384x1024 1 := cmpf .olt main_v0 main_v1
  let main_c : IVec S_ 1 := constantI S_ 1 1#1
  let main_v3 : IVec S_ 1 := (fun x v => Host.reduce IntOp.andi x v reducesTo_S8x16384x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S8x16384x1024 : Shape := ⟨3, ![8, 16384, 1024]⟩
abbrev S64x1024 : Shape := ⟨2, ![64, 1024]⟩
abbrev S8x64x1024 : Shape := ⟨3, ![8, 64, 1024]⟩
abbrev S1x4096x1024 : Shape := ⟨3, ![1, 4096, 1024]⟩
abbrev S1x64x1024 : Shape := ⟨3, ![1, 64, 1024]⟩
abbrev S64x1 : Shape := ⟨2, ![64, 1]⟩
abbrev S1x512x1024 : Shape := ⟨3, ![1, 512, 1024]⟩
abbrev S512x1024 : Shape := ⟨2, ![512, 1024]⟩
abbrev S64x512 : Shape := ⟨2, ![64, 512]⟩
abbrev S64 : Shape := ⟨1, ![64]⟩

abbrev nBuf : Space → Nat
  | .hbm => 3
  | .vmem => 9
  | .smem => 0
  | _ => 0

abbrev bufTy : (tb : Table) → Fin (tcTables nBuf tb) → BufTy
  | .hbm, ⟨0, _⟩ => ⟨S8x16384x1024, .f32⟩
  | .hbm, ⟨1, _⟩ => ⟨S64x1024, .f32⟩
  | .hbm, ⟨2, _⟩ => ⟨S8x64x1024, .f32⟩
  | .local _ .vmem, ⟨0, _⟩ => ⟨S64x1024, .f32⟩
  | .local _ .vmem, ⟨1, _⟩ => ⟨S1x4096x1024, .f32⟩
  | .local _ .vmem, ⟨2, _⟩ => ⟨S1x4096x1024, .f32⟩
  | .local _ .vmem, ⟨3, _⟩ => ⟨S1x64x1024, .f32⟩
  | .local _ .vmem, ⟨4, _⟩ => ⟨S1x64x1024, .f32⟩
  | .local _ .vmem, ⟨5, _⟩ => ⟨S64x1, .f32⟩
  | .local _ .vmem, ⟨6, _⟩ => ⟨S64x1, .f32⟩
  | .local _ .vmem, ⟨7, _⟩ => ⟨S64x1024, .f32⟩
  | .local _ .vmem, ⟨8, _⟩ => ⟨S64x1024, .bf16⟩
  | _, _ => ⟨S8x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 : BitVec 32 :=
  let c0_i32_1 : BitVec 32 := 0#32
  let c512_i32 : BitVec 32 := 512#32
  let v3 : BitVec 32 := Scalar.muli c0_i32_1 c512_i32
  v3
def k0_off1 (c0_i32_1 : BitVec 32) : Fin 3 → Nat :=
  let c0 : Index := 0#32
  let c512_i32 : BitVec 32 := 512#32
  let v3 : BitVec 32 := Scalar.muli c0_i32_1 c512_i32
  let v4 : BitVec 32 := v3
  let v5 : Index := Scalar.indexCast v4
  let c0_2 : Index := 0#32
  ![0, v5.toNat, 0]
def k0_mult2 : BitVec 32 :=
  let c1_i32 : BitVec 32 := 1#32
  let c512_i32_20 : BitVec 32 := 512#32
  let v40 : BitVec 32 := Scalar.muli c1_i32 c512_i32_20
  v40
def k0_mult3 : BitVec 32 :=
  let c2_i32 : BitVec 32 := 2#32
  let c512_i32_41 : BitVec 32 := 512#32
  let v77 : BitVec 32 := Scalar.muli c2_i32 c512_i32_41
  v77
def k0_mult4 : BitVec 32 :=
  let c3_i32 : BitVec 32 := 3#32
  let c512_i32_62 : BitVec 32 := 512#32
  let v114 : BitVec 32 := Scalar.muli c3_i32 c512_i32_62
  v114
def k0_mult5 : BitVec 32 :=
  let c4_i32 : BitVec 32 := 4#32
  let c512_i32_83 : BitVec 32 := 512#32
  let v151 : BitVec 32 := Scalar.muli c4_i32 c512_i32_83
  v151
def k0_mult6 : BitVec 32 :=
  let c5_i32 : BitVec 32 := 5#32
  let c512_i32_104 : BitVec 32 := 512#32
  let v188 : BitVec 32 := Scalar.muli c5_i32 c512_i32_104
  v188
def k0_mult7 : BitVec 32 :=
  let c6_i32 : BitVec 32 := 6#32
  let c512_i32_125 : BitVec 32 := 512#32
  let v225 : BitVec 32 := Scalar.muli c6_i32 c512_i32_125
  v225
def k0_mult8 : BitVec 32 :=
  let c7_i32 : BitVec 32 := 7#32
  let c512_i32_146 : BitVec 32 := 512#32
  let v262 : BitVec 32 := Scalar.muli c7_i32 c512_i32_146
  v262
def k0_cond2 (i : grid0.Coords) : BitVec 1 :=
  let arg1 : BitVec 32 := BitVec.ofNat 32 (i 1).val
  let c3_i32_167 : BitVec 32 := 3#32
  let v299 : BitVec 1 := Scalar.cmpi .eq arg1 c3_i32_167
  let v300 : BitVec 32 := Scalar.extui v299
  let c0_i32_168 : BitVec 32 := 0#32
  let v301 : BitVec 1 := Scalar.cmpi .ne v300 c0_i32_168
  v301

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  packedbf16_S64x1024_S64x1024_0_0 : (Rect.unit (s := S64x1024) ![0, 0] S64x1024.size inb_S64x1024_S64x1024_0_0).PackedRows (EltTy.packing .bf16)
  h_S1x512x1024 : 0 < S1x512x1024.numel
  shapeCasts_S1x512x1024_S512x1024 : S1x512x1024.ShapeCasts S512x1024
  reduces_S64x512_S64 : S64x512.Reduces [1] S64
  shapeCasts_S64_S64x1 : S64.ShapeCasts S64x1
  broadcasts_S64x1_S64x512 : S64x1.Broadcasts S64x512
  broadcasts_S64x1_S64x1024 : S64x1.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  dot_S64x1024_S512x1024_S64x512_1_1_0_0_n_n_wf : DotDims.WF S64x1024 S512x1024 S64x512 [1] [1] [0] [0] [] []
  dot_S64x512_S512x1024_S64x1024_1_0_0_1_n_n_wf : DotDims.WF S64x512 S512x1024 S64x1024 [1] [0] [0] [1] [] []
  hrank0 : 0 < grid0.rank
  k0_mult1_dvd : 512 ∣ k0_mult1.toNat
  k0_off1_inb : ∀ (r : Fin 8), ∀ a, (k0_off1 (BitVec.ofNat 32 r.val)) a + S1x512x1024.size a ≤ S1x4096x1024.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1024.size a ≤ S8x16384x1024.size a
  hwx0_1 : ∀ i : grid0.Coords, EltTy.bits .f32 = 32 ∨ (Rect.block (s := S8x16384x1024) S1x4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S8x64x1024.size a
  hwx0_2 : ∀ i : grid0.Coords, EltTy.bits .f32 = 32 ∨ (Rect.block (s := S8x64x1024) S1x64x1024.size (cc0_transform_2 i) (hinb0_2 i)).WholeWords (EltTy.packing .f32)

variable [Facts₀]

def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf

abbrev win0_0 : Pipeline.Window sig grid0 :=
  Pipeline.Window.ofSpec (Memref.whole main_arg1) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x16384x1024 : Shape := ⟨3, ![8, 16384, 1024]⟩
abbrev S64x1024 : Shape := ⟨2, ![64, 1024]⟩
abbrev S8x16384x64 : Shape := ⟨3, ![8, 16384, 64]⟩
abbrev S8x64x16384 : Shape := ⟨3, ![8, 64, 16384]⟩
abbrev S_ : Shape := ⟨0, ![]⟩
abbrev S8x64 : Shape := ⟨2, ![8, 64]⟩
abbrev S8x64x1 : Shape := ⟨3, ![8, 64, 1]⟩
abbrev S8x64x1024 : Shape := ⟨3, ![8, 64, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x16384x1024, .f32⟩
  | .hbm, ⟨1, _⟩ => ⟨S64x1024, .f32⟩
  | .hbm, ⟨2, _⟩ => ⟨S8x16384x64, .f32⟩
  | .hbm, ⟨3, _⟩ => ⟨S8x64x16384, .f32⟩
  | .hbm, ⟨4, _⟩ => ⟨S_, .f32⟩
  | .hbm, ⟨5, _⟩ => ⟨S8x64, .f32⟩
  | .hbm, ⟨6, _⟩ => ⟨S_, .f32⟩
  | .hbm, ⟨7, _⟩ => ⟨S8x64, .f32⟩
  | .hbm, ⟨8, _⟩ => ⟨S8x64, .f32⟩
  | .hbm, ⟨9, _⟩ => ⟨S8x64x1, .f32⟩
  | .hbm, ⟨10, _⟩ => ⟨S8x64x16384, .f32⟩
  | .hbm, ⟨11, _⟩ => ⟨S8x64x16384, .f32⟩
  | .hbm, ⟨12, _⟩ => ⟨S8x64x16384, .f32⟩
  | .hbm, ⟨13, _⟩ => ⟨S_, .f32⟩
  | .hbm, ⟨14, _⟩ => ⟨S8x64, .f32⟩
  | .hbm, ⟨15, _⟩ => ⟨S8x64x1, .f32⟩
  | .hbm, ⟨16, _⟩ => ⟨S8x64x16384, .f32⟩
  | .hbm, ⟨17, _⟩ => ⟨S8x64x16384, .f32⟩
  | .hbm, ⟨18, _⟩ => ⟨S8x64x1024, .f32⟩
  | _, _ => ⟨S8x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  transposes_S8x16384x64_S8x64x16384_0_2_1 : S8x16384x64.Transposes [0, 2, 1] S8x64x16384
  reducesTo_S8x64x16384_S8x64_d2 : S8x64x16384.ReducesTo [2] S8x64
  h_S_ : 0 < S_.numel
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S8x64x1_S8x64x16384_0_1_2 : S8x64x1.BroadcastsInDim S8x64x16384 (![0, 1, 2] : Fin 3 → Fin S8x64x16384.rank)
  dot_S8x16384x1024_S64x1024_S8x16384x64_2_1_01_0_n_n_wf : DotDims.WF S8x16384x1024 S64x1024 S8x16384x64 [2] [1] [0, 1] [0] [] []
  dot_S8x64x16384_S8x16384x1024_S8x64x1024_2_1_1_2_0_0_wf : DotDims.WF S8x64x16384 S8x16384x1024 S8x64x1024 [2] [1] [1] [2] [0] [0]

variable [Facts₀]

def dot_S8x16384x1024_S64x1024_S8x16384x64_2_1_01_0_n_n : DotDims S8x16384x1024 S64x1024 S8x16384x64 where
  lhsContracting := [2]
  rhsContracting := [1]
  lhsNonContracting := [0, 1]
  rhsNonContracting := [0]
  lhsBatch := []
  rhsBatch := []
  wf := dot_S8x16384x1024_S64x1024_S8x16384x64_2_1_01_0_n_n_wf
def dot_S8x64x16384_S8x16384x1024_S8x64x1024_2_1_1_2_0_0 : DotDims S8x64x16384 S8x16384x1024 S8x64x1024 where
  lhsContracting := [2]
  rhsContracting := [1]
  lhsNonContracting := [1]
  rhsNonContracting := [2]
  lhsBatch := [0]
  rhsBatch := [0]
  wf := dot_S8x64x16384_S8x16384x1024_S8x64x1024_2_1_1_2_0_0_wf

class Facts : Prop extends Facts₀ where

variable [Facts]
-- ==== Proof.Step.lean ====
/-
  One run of 512 rows taken into the running softmax state, as the kernel computes it on whole blocks.

  The state is a column of largest scores so far (64 by 1), a column of sums of exponentials (64 by 1) and a block of
  weighted feature sums (64 by 1024).  A run of 512 feature rows x and the 64 queries q give the scores q xᵀ; the new
  largest score is the old one against the run's row-wise maximum; the old sums are rescaled by
  exp (old largest - new largest) and the run's own exponentials, and their product with the rows, are added.
  A tile of 4096 rows is eight such runs one after the other.
-/
import proofs.«136844_j29454885716437_2_alg».proof.Proof.Gen.KernelIdeal
import Idealize.ShloMosaic.Lib.Pipeline.Value

noncomputable section

namespace Cert.KernelIdeal.Step

open Idealize.ShloMosaic Cert.KernelIdeal Cert.KernelIdeal.Facts₀

variable {F : FTy → Type} [FloatOps F]

/-- The run's rows as a 512 by 1024 matrix in the matrix unit's format. -/
def rows (x : Vec F S1x512x1024 .f32) : FVec F S512x1024 .bf16 :=
  truncf .bf16 (shapeCast S512x1024 x shapeCasts_S1x512x1024_S512x1024) bitsLt_bf16_f32

/-- The scores of the 64 queries against the run's 512 rows. -/
def scores (q : Vec F S64x1024 .bf16) (x : Vec F S1x512x1024 .f32) : FVec F S64x512 .f32 :=
  matmul dot_S64x1024_S512x1024_S64x512_1_1_0_0_n_n none q (rows x) (constant S64x512 .f32 0x00000000#32)

/-- The largest score so far, after the run. -/
def top (q : Vec F S64x1024 .bf16) (x : Vec F S1x512x1024 .f32) (m : Vec F S64x1 .f32) : FVec F S64x1 .f32 :=
  maximumf m (shapeCast S64x1 (multiReduction .maximumf [1] S64 (scores q x) 0xFF800000#32 reduces_S64x512_S64 (.inl rfl) rfl) shapeCasts_S64_S64x1)

/-- The factor that rescales the old sums: exp (old largest - new largest). -/
def scale (q : Vec F S64x1024 .bf16) (x : Vec F S1x512x1024 .f32) (m : Vec F S64x1 .f32) : FVec F S64x1 .f32 :=
  exp (subf m (top q x m))

/-- The run's exponentials exp (score - new largest). -/
def weights (q : Vec F S64x1024 .bf16) (x : Vec F S1x512x1024 .f32) (m : Vec F S64x1 .f32) : FVec F S64x512 .f32 :=
  exp (subf (scores q x) (broadcastTo S64x512 (top q x m) broadcasts_S64x1_S64x512))

/-- The sum of exponentials after the run. -/
def den (q : Vec F S64x1024 .bf16) (x : Vec F S1x512x1024 .f32) (m l : Vec F S64x1 .f32) : FVec F S64x1 .f32 :=
  addf (mulf (scale q x m) l)
    (shapeCast S64x1 (multiReduction .add [1] S64 (weights q x m) 0x00000000#32 reduces_S64x512_S64 (.inl rfl) rfl) shapeCasts_S64_S64x1)

/-- The weighted feature sums after the run. -/
def num (q : Vec F S64x1024 .bf16) (x : Vec F S1x512x1024 .f32) (m : Vec F S64x1 .f32) (a : Vec F S64x1024 .f32) : FVec F S64x1024 .f32 :=
  addf (mulf (broadcastTo S64x1024 (scale q x m) broadcasts_S64x1_S64x1024) a)
    (matmul dot_S64x512_S512x1024_S64x1024_1_0_0_1_n_n none (truncf .bf16 (weights q x m) bitsLt_bf16_f32) (rows x)
      (constant S64x1024 .f32 0x00000000#32))

/-- The running state: largest scores, sums of exponentials, weighted feature sums. -/
abbrev St (F : FTy → Type) : Type := Vec F S64x1 .f32 × Vec F S64x1 .f32 × Vec F S64x1024 .f32

/-- One run taken into the state. -/
def run (q : Vec F S64x1024 .bf16) (x : Vec F S1x512x1024 .f32) (s : St F) : St F :=
  (top q x s.1, den q x s.1 s.2.1, num q x s.1 s.2.2)

/-- The state a batch starts from: minus infinity, zero, zero. -/
def start : St F :=
  (broadcast S64x1 (Scalar.ofBits .f32 0xFF800000#32), broadcast S64x1 (Scalar.ofBits .f32 0x00000000#32),
    broadcast S64x1024 (Scalar.ofBits .f32 0x00000000#32))

/-- The same run with each component passed through the identity recast under which it is stored. -/
def runK (q : Vec F S64x1024 .bf16) (x : Vec F S1x512x1024 .f32) (s : St F) : St F :=
  (shapeCast S64x1 (top q x s.1) shapeCasts_S64x1_S64x1, shapeCast S64x1 (den q x s.1 s.2.1) shapeCasts_S64x1_S64x1,
    shapeCast S64x1024 (num q x s.1 s.2.2) shapeCasts_S64x1024_S64x1024)

/-- The start state under the same identity recasts. -/
def startK : St F :=
  (shapeCast S64x1 (broadcast S64x1 (Scalar.ofBits .f32 0xFF800000#32)) shapeCasts_S64x1_S64x1,
    shapeCast S64x1 (broadcast S64x1 (Scalar.ofBits .f32 0x00000000#32)) shapeCasts_S64x1_S64x1,
    shapeCast S64x1024 (broadcast S64x1024 (Scalar.ofBits .f32 0x00000000#32)) shapeCasts_S64x1024_S64x1024)

/-- The queries in the matrix unit's format, under the identity recast under which they are stored. -/
def queriesK (x0 : Vec F S64x1024 .f32) : FVec F S64x1024 .bf16 :=
  shapeCast S64x1024 (truncf .bf16 x0 bitsLt_bf16_f32) shapeCasts_S64x1024_S64x1024

/-- Run k of a tile of 4096 rows: rows 512 k to 512 k + 511. -/
theorem slab_inb (k : Fin 8) : ∀ a, (![0, 512 * k.val, 0] : Fin 3 → Nat) a + S1x512x1024.size a ≤ S1x4096x1024.size a := by
  intro a
  fin_cases a
  · show 0 + 1 ≤ 1; omega
  · show 512 * k.val + 512 ≤ 4096; have := k.isLt; omega
  · show 0 + 1024 ≤ 1024; omega

def slab (x1 : Vec F S1x4096x1024 .f32) (k : Fin 8) : Vec F S1x512x1024 .f32 :=
  View.ld x1 (Rect.unit (s := S1x4096x1024) ![0, 512 * k.val, 0] S1x512x1024.size (slab_inb k))

/-- A tile of 4096 rows taken into the state: its eight runs in order. -/
def tileK (q : Vec F S64x1024 .bf16) (x1 : Vec F S1x4096x1024 .f32) (s : St F) : St F :=
  runK q (slab x1 7) (runK q (slab x1 6) (runK q (slab x1 5) (runK q (slab x1 4)
    (runK q (slab x1 3) (runK q (slab x1 2) (runK q (slab x1 1) (runK q (slab x1 0) s)))))))

/-- The pooled block: the weighted sums divided by the sums of exponentials, as a one-batch block. -/
def quot (s : St F) : FVec F S1x64x1024 .f32 :=
  shapeCast S1x64x1024 (divf s.2.2 (broadcastTo S64x1024 s.2.1 broadcasts_S64x1_S64x1024)) shapeCasts_S64x1024_S1x64x1024

end Cert.KernelIdeal.Step

end
-- ==== Proof.LibReadBack.lean ====
/-
  A load of a whole buffer after stores into it.

  For any element type, shape and view: when the last of a list of stores went through the whole-shape rectangle at
  zero offsets (however the zeros are spelt), a load through that same rectangle reads that store's payload, whatever the
  earlier stores were. (The library has the case of exactly one store; this is the case of one store followed by any
  earlier ones, as when an accumulator is filled, then overwritten, then read back.)
-/
import Idealize.ShloMosaic.Lib.Pipeline.Value

noncomputable section

namespace Cert.Bridge.ReadBack

open Idealize.ShloMosaic

/-- A load of the whole buffer, after stores the last of which covered the whole buffer, reads that store's payload. -/
theorem readCov_cons_unit_zero {Val : EltTy → Type} {S : Shape} {e : EltTy} [∀ e, Nonempty (Val e)] {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

end Cert.Bridge.ReadBack

end
-- ==== Proof.ReadBackLit.lean ====
/-
  Whole-buffer loads after whole-buffer stores, at the two block shapes of the running state: a load of the whole 64 by 1
  column (or 64 by 1024 block) after stores the last of which covered it reads that store's payload.
-/
import proofs.«136844_j29454885716437_2_alg».proof.KernelIdeal
import proofs.«136844_j29454885716437_2_alg».proof.Proof.LibReadBack
import Idealize.ShloMosaic.Lib.Pipeline.Value

noncomputable section

namespace Cert.KernelIdeal.Pieces

open Cert.KernelIdeal Idealize.ShloMosaic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-buffer load of a 64 by 1 column after stores the last of which was a whole-buffer store reads that store. -/
theorem back_col {sg : RefSig} {κ : Kind} {sp : Space} {e : EltTy} (v : View sg κ sp S64x1 e) (w : S64x1.Idx → Elt F e)
    (inb : ∀ a, (![0, 0] : Fin 2 → Nat) a + S64x1.size a ≤ S64x1.size a) (L : List (View.Piece (Elt F) S64x1 e)) :
    v.readCov ((⟨Rect.unit (s := S64x1) ![0, 0] ![64, 1] inb, w⟩ : View.Piece (Elt F) S64x1 e) :: L)
      (Rect.unit (s := S64x1) ![0, 0] ![64, 1] inb).toLoadRect = w :=
  Cert.Bridge.ReadBack.readCov_cons_unit_zero v hz2 inb w L

/-- The same for a 64 by 1024 block. -/
theorem back_blk {sg : RefSig} {κ : Kind} {sp : Space} {e : EltTy} (v : View sg κ sp S64x1024 e) (w : S64x1024.Idx → Elt F e)
    (inb : ∀ a, (![0, 0] : Fin 2 → Nat) a + S64x1024.size a ≤ S64x1024.size a) (L : List (View.Piece (Elt F) S64x1024 e)) :
    v.readCov ((⟨Rect.unit (s := S64x1024) ![0, 0] ![64, 1024] inb, w⟩ : View.Piece (Elt F) S64x1024 e) :: L)
      (Rect.unit (s := S64x1024) ![0, 0] ![64, 1024] inb).toLoadRect = w :=
  Cert.Bridge.ReadBack.readCov_cons_unit_zero v hz2 inb w L

end Cert.KernelIdeal.Pieces

end
-- ==== Proof.PiecesA.lean ====
/-
  What the first grid point of a batch leaves in the carried state: the start state and the stored queries, then the
  tile's eight runs.
-/
import proofs.«136844_j29454885716437_2_alg».proof.Proof.Gen.KernelIdeal.Frame
import proofs.«136844_j29454885716437_2_alg».proof.Proof.Step
import proofs.«136844_j29454885716437_2_alg».proof.Proof.ReadBackLit
import Idealize.ShloMosaic.Lib.Pipeline.Value

set_option maxRecDepth 16384
set_option pp.maxSteps 3000
set_option pp.deepTerms false

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The largest scores after a batch's first point. -/
theorem sout_A_0 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : cond0_0 i) (hc1 : ¬cond0_1 i)
    (x0 : Vec F S64x1024 .f32) (x1 : Vec F S1x4096x1024 .f32) :
    sout0_A_0 c i arg2 harg2 arg3 harg3 arg4 harg4 arg5 harg5 arg6 harg6 arg7 harg7 arg8 harg8 hc0 hc1 x0 x1
      = (Step.tileK (Step.queriesK x0) x1 Step.startK).1 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S64x1) hz2]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

/-- The sums of exponentials after a batch's first point. -/
theorem sout_A_1 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : cond0_0 i) (hc1 : ¬cond0_1 i)
    (x0 : Vec F S64x1024 .f32) (x1 : Vec F S1x4096x1024 .f32) :
    sout0_A_1 c i arg2 harg2 arg3 harg3 arg4 harg4 arg5 harg5 arg6 harg6 arg7 harg7 arg8 harg8 hc0 hc1 x0 x1
      = (Step.tileK (Step.queriesK x0) x1 Step.startK).2.1 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S64x1) hz2]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

/-- The weighted feature sums after a batch's first point. -/
theorem sout_A_2 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : cond0_0 i) (hc1 : ¬cond0_1 i)
    (x0 : Vec F S64x1024 .f32) (x1 : Vec F S1x4096x1024 .f32) :
    sout0_A_2 c i arg2 harg2 arg3 harg3 arg4 harg4 arg5 harg5 arg6 harg6 arg7 harg7 arg8 harg8 hc0 hc1 x0 x1
      = (Step.tileK (Step.queriesK x0) x1 Step.startK).2.2 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S64x1024) hz2]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

/-- The stored queries after a batch's first point. -/
theorem sout_A_3 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : cond0_0 i) (hc1 : ¬cond0_1 i)
    (x0 : Vec F S64x1024 .f32) (x1 : Vec F S1x4096x1024 .f32) :
    sout0_A_3 c i arg2 harg2 arg3 harg3 arg4 harg4 arg5 harg5 arg6 harg6 arg7 harg7 arg8 harg8 hc0 hc1 x0 x1
      = Step.queriesK x0 := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_unit_zero (S := S64x1024) hz2]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

end Cert.KernelIdeal.Pieces

end
-- ==== Proof.PiecesB.lean ====
/-
  What a grid point in the middle of a batch leaves in the carried state: the tile's eight runs applied to what the
  point before left, with the queries kept from the batch's first point.
-/
import proofs.«136844_j29454885716437_2_alg».proof.Proof.Gen.KernelIdeal.Frame
import proofs.«136844_j29454885716437_2_alg».proof.Proof.Step
import proofs.«136844_j29454885716437_2_alg».proof.Proof.ReadBackLit
import Idealize.ShloMosaic.Lib.Pipeline.Value

set_option maxRecDepth 16384
set_option pp.maxSteps 3000
set_option pp.deepTerms false

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The largest scores after a middle point. -/
theorem sout_B_0 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : ¬cond0_0 i) (hc1 : ¬cond0_1 i)
    (x0 : Vec F S64x1024 .f32) (x1 : Vec F S1x4096x1024 .f32) (xs0 : Vec F S64x1 .f32) (xs1 : Vec F S64x1 .f32) (xs2 : Vec F S64x1024 .f32) (xs3 : Vec F S64x1024 .bf16) :
    sout0_B_0 c i arg2 harg2 arg3 harg3 arg4 harg4 arg5 harg5 arg6 harg6 arg7 harg7 arg8 harg8 hc0 hc1 x0 x1 xs0 xs1 xs2 xs3
      = (Step.tileK xs3 x1 (xs0, xs1, xs2)).1 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_cons_unit_zero (S := S64x1) hz2]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

/-- The sums of exponentials after a middle point. -/
theorem sout_B_1 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : ¬cond0_0 i) (hc1 : ¬cond0_1 i)
    (x0 : Vec F S64x1024 .f32) (x1 : Vec F S1x4096x1024 .f32) (xs0 : Vec F S64x1 .f32) (xs1 : Vec F S64x1 .f32) (xs2 : Vec F S64x1024 .f32) (xs3 : Vec F S64x1024 .bf16) :
    sout0_B_1 c i arg2 harg2 arg3 harg3 arg4 harg4 arg5 harg5 arg6 harg6 arg7 harg7 arg8 harg8 hc0 hc1 x0 x1 xs0 xs1 xs2 xs3
      = (Step.tileK xs3 x1 (xs0, xs1, xs2)).2.1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_cons_unit_zero (S := S64x1) hz2]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

/-- The weighted feature sums after a middle point. -/
theorem sout_B_2 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : ¬cond0_0 i) (hc1 : ¬cond0_1 i)
    (x0 : Vec F S64x1024 .f32) (x1 : Vec F S1x4096x1024 .f32) (xs0 : Vec F S64x1 .f32) (xs1 : Vec F S64x1 .f32) (xs2 : Vec F S64x1024 .f32) (xs3 : Vec F S64x1024 .bf16) :
    sout0_B_2 c i arg2 harg2 arg3 harg3 arg4 harg4 arg5 harg5 arg6 harg6 arg7 harg7 arg8 harg8 hc0 hc1 x0 x1 xs0 xs1 xs2 xs3
      = (Step.tileK xs3 x1 (xs0, xs1, xs2)).2.2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_cons_unit_zero (S := S64x1024) hz2]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

end Cert.KernelIdeal.Pieces

end
-- ==== Proof.PiecesC.lean ====
/-
  What the last grid point of a batch leaves: the carried state after the tile's eight runs, and in the output block
  the quotient of that state.
-/
import proofs.«136844_j29454885716437_2_alg».proof.Proof.Gen.KernelIdeal.Frame
import proofs.«136844_j29454885716437_2_alg».proof.Proof.Step
import proofs.«136844_j29454885716437_2_alg».proof.Proof.ReadBackLit
import Idealize.ShloMosaic.Lib.Pipeline.Value

set_option maxRecDepth 16384
set_option pp.maxSteps 3000
set_option pp.deepTerms false

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The largest scores after a batch's last point. -/
theorem sout_C_0 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : ¬cond0_0 i) (hc1 : cond0_1 i)
    (x0 : Vec F S64x1024 .f32) (x1 : Vec F S1x4096x1024 .f32) (xs0 : Vec F S64x1 .f32) (xs1 : Vec F S64x1 .f32) (xs2 : Vec F S64x1024 .f32) (xs3 : Vec F S64x1024 .bf16) :
    sout0_C_0 c i arg2 harg2 arg3 harg3 arg4 harg4 arg5 harg5 arg6 harg6 arg7 harg7 arg8 harg8 hc0 hc1 x0 x1 xs0 xs1 xs2 xs3
      = (Step.tileK xs3 x1 (xs0, xs1, xs2)).1 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_cons_unit_zero (S := S64x1) hz2]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

/-- The sums of exponentials after a batch's last point. -/
theorem sout_C_1 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : ¬cond0_0 i) (hc1 : cond0_1 i)
    (x0 : Vec F S64x1024 .f32) (x1 : Vec F S1x4096x1024 .f32) (xs0 : Vec F S64x1 .f32) (xs1 : Vec F S64x1 .f32) (xs2 : Vec F S64x1024 .f32) (xs3 : Vec F S64x1024 .bf16) :
    sout0_C_1 c i arg2 harg2 arg3 harg3 arg4 harg4 arg5 harg5 arg6 harg6 arg7 harg7 arg8 harg8 hc0 hc1 x0 x1 xs0 xs1 xs2 xs3
      = (Step.tileK xs3 x1 (xs0, xs1, xs2)).2.1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_cons_unit_zero (S := S64x1) hz2]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

/-- The weighted feature sums after a batch's last point. -/
theorem sout_C_2 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : ¬cond0_0 i) (hc1 : cond0_1 i)
    (x0 : Vec F S64x1024 .f32) (x1 : Vec F S1x4096x1024 .f32) (xs0 : Vec F S64x1 .f32) (xs1 : Vec F S64x1 .f32) (xs2 : Vec F S64x1024 .f32) (xs3 : Vec F S64x1024 .bf16) :
    sout0_C_2 c i arg2 harg2 arg3 harg3 arg4 harg4 arg5 harg5 arg6 harg6 arg7 harg7 arg8 harg8 hc0 hc1 x0 x1 xs0 xs1 xs2 xs3
      = (Step.tileK xs3 x1 (xs0, xs1, xs2)).2.2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_cons_unit_zero (S := S64x1024) hz2]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

/-- The output block after a batch's last point: the quotient of the state. -/
theorem out_C_2 (c : Dev nD) (i : grid0.Coords) (arg2 : Memref sig .tc .vmem S64x1024 .f32) (harg2 : arg2.IsWhole) (arg3 : Memref sig .tc .vmem S1x4096x1024 .f32) (harg3 : arg3.IsWhole) (arg4 : Memref sig .tc .vmem S1x64x1024 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1024 .f32) (harg7 : arg7.IsWhole) (arg8 : Memref sig .tc .vmem S64x1024 .bf16) (harg8 : arg8.IsWhole) (hc0 : ¬cond0_0 i) (hc1 : cond0_1 i)
    (x0 : Vec F S64x1024 .f32) (x1 : Vec F S1x4096x1024 .f32) (xs0 : Vec F S64x1 .f32) (xs1 : Vec F S64x1 .f32) (xs2 : Vec F S64x1024 .f32) (xs3 : Vec F S64x1024 .bf16) :
    out0_C_2 c i arg2 harg2 arg3 harg3 arg4 harg4 arg5 harg5 arg6 harg6 arg7 harg7 arg8 harg8 hc0 hc1 x0 x1 xs0 xs1 xs2 xs3
      = Step.quot (Step.tileK xs3 x1 (xs0, xs1, xs2)) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S1x64x1024) hz3]
  simp only [back_col, back_blk, View.readAt_eq_ld, harg2.read_unread, harg3.read_unread, harg5.read_unread, harg6.read_unread, harg7.read_unread, harg8.read_unread, View.ld_unit_zero (S := S64x1) hz2, View.ld_unit_zero (S := S64x1024) hz2]
  rfl

end Cert.KernelIdeal.Pieces

end
-- ==== Proof.LibMatmulNT.lean ====
/-
  A matrix product against the transpose, read at an entry.

  A kernel's product of an M×K matrix X by an N×K matrix W contracted on the LAST axis of both (X · Wᵀ), accumulated into a
  zero splat, has at entry (r, c) the sum over k of X(r,k) · W(c,k).  At the ideal values, for any extents and any float
  formats of the operands.  The contraction index has one axis, so the sum over it is re-indexed by its one coordinate.
-/
import Idealize.ShloMosaic.Lib.ValueIdx
import Idealize.ShloMosaic.PureOps.Ideal.Laws

noncomputable section

namespace Cert.Bridge.MatmulNT

open Idealize.ShloMosaic Idealize.ShloMosaic.ValueIdx
open scoped BigOperators

variable {M K N : ℕ}

/-- X · Wᵀ into the zero splat, at entry (r, c): the sum over k of X(r,k) · W(c,k). -/
theorem matmul_zero_transposedRhs_apply {φ₁ φ₂ : FTy} (d : DotDims ⟨2, ![M, K]⟩ ⟨2, ![N, K]⟩ ⟨2, ![M, N]⟩)
    (hd : d = DotDims.transposedRhs M K N) (X : FVec Ideal ⟨2, ![M, K]⟩ φ₁) (W : FVec Ideal ⟨2, ![N, K]⟩ φ₂)
    (r : Fin M) (c : Fin N) :
    matmul d none X W (constant ⟨2, ![M, N]⟩ .f32 0x00000000#32) (ix2 r c) = ∑ k : Fin K, X (ix2 r k) * W (ix2 c k) := by
  subst hd
  show FloatOps.matmul _ none X W (constant _ .f32 0x00000000#32) (ix2 r c) = _
  rw [Ideal.matmul_constant_zero_apply, ← Equiv.sum_comp (contrEquiv1 (DotDims.transposedRhs M K N) K rfl rfl).symm]
  refine Finset.sum_congr rfl fun k _ => ?_
  have ck := contrEquiv1_symm_val (DotDims.transposedRhs M K N) K rfl rfl k
  have el : (DotDims.transposedRhs M K N).lhsIdx (ix2 r c) ((contrEquiv1 _ K rfl rfl).symm k) = ix2 r k := by
    funext ax; apply Fin.ext
    match ax with
    | ⟨0, _⟩ => simp [DotDims.lhsIdx, DotDims.transposedRhs]; rfl
    | ⟨1, _⟩ => simp [DotDims.lhsIdx, DotDims.transposedRhs]; exact ck
  have er : (DotDims.transposedRhs M K N).rhsIdx (ix2 r c) ((contrEquiv1 _ K rfl rfl).symm k) = ix2 c k := by
    funext ax; apply Fin.ext
    match ax with
    | ⟨0, _⟩ => simp [DotDims.rhsIdx, DotDims.transposedRhs]; rfl
    | ⟨1, _⟩ => simp [DotDims.rhsIdx, DotDims.transposedRhs]; exact ck
  rw [el, er]

end Cert.Bridge.MatmulNT

end
-- ==== Proof.LibRowReduce.lean ====
/-
  Row-wise reductions of a matrix and the column layouts that carry their results back, read entry by entry.

  For an a×b matrix X, reducing along the second axis gives one value per row p: the sum, or the maximum, over the b
  entries X(p, 0), …, X(p, b-1).  A kernel computes it with a lane reduction, a host program with a one-operand reduce
  from an initial value; both are the same fold over the row's coordinates.  The reduced vector [a] is then laid out as
  a column [a, 1] and spread over b columns, so that entry (p, c) of the result is the value of row p.  Nothing here uses
  more than commutativity and associativity of the reduced operation, so every statement holds at the infinities too.
  Stated for any extents a and b.
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowReduce

open Idealize.ShloMosaic Idealize.ShloMosaic.ValueIdx
open scoped BigOperators

variable {α : Type} {a b : ℕ}

/-! ## Column layouts -/

/-- A vector [a] laid out as the column [a, 1] reads, at (i, u), the vector at i. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b columns reads, at (p, c), the column at (p, 0). -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] spread over b columns through its column layout reads, at (p, c), the vector at p. -/
theorem column_spread_apply (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) := by
  rw [broadcastTo_a1_ab_apply, shapeCast_a_a1_apply]

/-! ## The row's entries, as the reduction names them -/

/-- Row p of an a×b matrix with the column k put back is the entry (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

variable {φ : FTy}

/-- A kernel's lane sum of an a×b block, at row p: the sum of the row's entries. -/
theorem laneSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- A kernel's lane maximum of an a×b block, at row p: the fold of max over the row's entries, from the accumulator's
    value. -/
theorem laneMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  exact congrArg (Finset.fold max _ · Finset.univ) (funext fun k => congrArg src (lift_row h p k))

/-- A host's sum along the rows of an a×b array, at row p: the initial value plus the sum of the row's entries. -/
theorem hostRowSum_apply (h' : (⟨2, ![a, b]⟩ : Shape).ReducesTo [1] ⟨1, ![a]⟩) (h : (⟨2, ![a, b]⟩ : Shape).Reduces [1] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h]
  exact congrArg (init + ·) (Finset.sum_congr rfl fun k _ => congrArg x (lift_row h p k))

/-- A host's maximum along the rows of an a×b array, at row p: the fold of max over the row's entries, from the initial
    value. -/
theorem hostRowMax_apply {u : Shape} (h' : (⟨2, ![a, b]⟩ : Shape).ReducesTo [1] ⟨1, ![a]⟩)
    (h : (⟨2, ![a, b]⟩ : Shape).Reduces [1] ⟨1, ![a]⟩) (x : FVec Ideal ⟨2, ![a, b]⟩ φ) (init : u.Idx → Ideal φ) (hu : 0 < u.numel)
    (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  exact congrArg (Finset.fold max _ · Finset.univ) (funext fun k => congrArg x (lift_row h p k))

end Cert.RowReduce

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.StepIdx.lean ====
/-
  One run of the running softmax, entry by entry, at the ideal values: the scores are inner products of a query with a
  feature row, the new largest score is the old one against the largest of the run's 512 scores, and the rescaled sums
  are read at a query (and a feature column) as sums over the run's rows.
-/
import proofs.«136844_j29454885716437_2_alg».proof.Proof.Step
import proofs.«136844_j29454885716437_2_alg».proof.Proof.LibMatmulNT
import proofs.«136844_j29454885716437_2_alg».proof.Proof.LibRowReduce
import proofs.«136844_j29454885716437_2_alg».proof.Proof.LibSplit
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Step

open Idealize.ShloMosaic Idealize.ShloMosaic.ValueIdx Cert.KernelIdeal Cert.KernelIdeal.Facts₀
open scoped BigOperators

/-- The run's rows as a matrix: row k, column e is entry (0, k, e) of the run. -/
private theorem rows_apply (x : Vec Ideal S1x512x1024 .f32) (k : Fin 512) (e : Fin 1024) :
    rows x (ix2 k e) = x (ix3 (0 : Fin 1) k e) := by
  unfold rows
  show shapeCast S512x1024 x shapeCasts_S1x512x1024_S512x1024 (ix2 k e) = _
  exact shapeCast_1ab_ab_apply x _ k e

/-- A score: the inner product of query r with row k of the run. -/
theorem scores_apply (q : Vec Ideal S64x1024 .bf16) (x : Vec Ideal S1x512x1024 .f32) (r : Fin 64) (k : Fin 512) :
    scores q x (ix2 r k) = ∑ e : Fin 1024, q (ix2 r e) * x (ix3 (0 : Fin 1) k e) := by
  unfold scores
  refine (Cert.Bridge.MatmulNT.matmul_zero_transposedRhs_apply (M := 64) (K := 1024) (N := 512) _ rfl q (rows x) r k).trans ?_
  refine Finset.sum_congr rfl fun e _ => ?_
  rw [rows_apply]

/-- The largest score after the run: the old one against the largest of the run's scores, folded from minus infinity. -/
theorem top_apply (q : Vec Ideal S64x1024 .bf16) (x : Vec Ideal S1x512x1024 .f32) (m : Vec Ideal S64x1 .f32) (r : Fin 64) :
    top q x m (ix2 r (0 : Fin 1))
      = max (m (ix2 r (0 : Fin 1)))
          ((Finset.univ : Finset (Fin 512)).fold max (Ideal.ofBits .f32 0xFF800000#32) fun k => scores q x (ix2 r k)) := by
  unfold top
  refine (maximumf_apply _ _ _).trans ?_
  refine congrArg (max (m (ix2 r (0 : Fin 1)))) ?_
  refine (Cert.RowReduce.shapeCast_a_a1_apply _ _ r (0 : Fin 1)).trans ?_
  exact Cert.RowReduce.laneMax_apply (scores q x) _ _ _ _ r

/-- The rescaling factor. -/
theorem scale_apply (q : Vec Ideal S64x1024 .bf16) (x : Vec Ideal S1x512x1024 .f32) (m : Vec Ideal S64x1 .f32) (r : Fin 64) :
    scale q x m (ix2 r (0 : Fin 1)) = Ideal.exp (m (ix2 r (0 : Fin 1)) - top q x m (ix2 r (0 : Fin 1))) := by
  rfl

/-- The run's exponentials. -/
theorem weights_apply (q : Vec Ideal S64x1024 .bf16) (x : Vec Ideal S1x512x1024 .f32) (m : Vec Ideal S64x1 .f32) (r : Fin 64)
    (k : Fin 512) :
    weights q x m (ix2 r k) = Ideal.exp (scores q x (ix2 r k) - top q x m (ix2 r (0 : Fin 1))) := by
  unfold weights
  show Ideal.exp (scores q x (ix2 r k) - broadcastTo S64x512 (top q x m) broadcasts_S64x1_S64x512 (ix2 r k)) = _
  rw [Cert.RowReduce.broadcastTo_a1_ab_apply]

/-- The sum of exponentials after the run. -/
theorem den_apply (q : Vec Ideal S64x1024 .bf16) (x : Vec Ideal S1x512x1024 .f32) (m l : Vec Ideal S64x1 .f32) (r : Fin 64) :
    den q x m l (ix2 r (0 : Fin 1))
      = scale q x m (ix2 r (0 : Fin 1)) * l (ix2 r (0 : Fin 1)) + ∑ k : Fin 512, weights q x m (ix2 r k) := by
  unfold den
  refine (addf_apply _ _ _).trans ?_
  refine congrArg₂ (· + ·) rfl ?_
  refine (Cert.RowReduce.shapeCast_a_a1_apply _ _ r (0 : Fin 1)).trans ?_
  exact Cert.RowReduce.laneSum_apply (weights q x m) _ _ _ _ r

/-- The weighted feature sum after the run. -/
theorem num_apply (q : Vec Ideal S64x1024 .bf16) (x : Vec Ideal S1x512x1024 .f32) (m : Vec Ideal S64x1 .f32)
    (a : Vec Ideal S64x1024 .f32) (r : Fin 64) (d : Fin 1024) :
    num q x m a (ix2 r d)
      = scale q x m (ix2 r (0 : Fin 1)) * a (ix2 r d) + ∑ k : Fin 512, weights q x m (ix2 r k) * x (ix3 (0 : Fin 1) k d) := by
  unfold num
  refine (addf_apply _ _ _).trans ?_
  refine congrArg₂ (· + ·) ?_ ?_
  · refine (mulf_apply _ _ _).trans ?_
    rw [Cert.RowReduce.broadcastTo_a1_ab_apply]
  · refine (Cert.Bridge.Split.matmul_zero_plain_apply (M := 64) (K := 512) (N := 1024) _ rfl
      (truncf .bf16 (weights q x m) bitsLt_bf16_f32) (rows x) r d).trans ?_
    refine Finset.sum_congr rfl fun k _ => ?_
    rw [rows_apply, truncf_apply]

/-- The pooled block: weighted sum over sum of exponentials. -/
theorem quot_apply (s : St Ideal) (r : Fin 64) (d : Fin 1024) :
    quot s (ix3 (0 : Fin 1) r d) = Ideal.div (s.2.2 (ix2 r d)) (s.2.1 (ix2 r (0 : Fin 1))) := by
  unfold quot
  refine (shapeCast_ab_1ab_apply _ _ (0 : Fin 1) r d).trans ?_
  refine (divf_apply _ _ _).trans ?_
  rw [Cert.RowReduce.broadcastTo_a1_ab_apply]

/-- The identity recasts change nothing. -/
theorem runK_eq (q : Vec Ideal S64x1024 .bf16) (x : Vec Ideal S1x512x1024 .f32) (s : St Ideal) : runK q x s = run q x s := by
  unfold runK run
  simp only [shapeCast_self]

theorem startK_eq : (startK : St Ideal) = start := by
  unfold startK start
  simp only [shapeCast_self]

/-- The stored queries are the queries: a change of format is the identity at the ideal values. -/
theorem queriesK_eq (x0 : Vec Ideal S64x1024 .f32) : (queriesK x0 : Vec Ideal S64x1024 .bf16) = x0 := by
  unfold queriesK
  rw [shapeCast_self]
  rfl

/-- The start state, entry by entry. -/
theorem start_apply (r : Fin 64) (d : Fin 1024) :
    (start : St Ideal).1 (ix2 r (0 : Fin 1)) = Ideal.ofBits .f32 0xFF800000#32
      ∧ (start : St Ideal).2.1 (ix2 r (0 : Fin 1)) = Ideal.ofBits .f32 0x00000000#32
      ∧ (start : St Ideal).2.2 (ix2 r d) = Ideal.ofBits .f32 0x00000000#32 := by
  exact ⟨rfl, rfl, rfl⟩

/-- Row k of run j of a tile is row 512 j + k of the tile. -/
theorem slab_apply (x1 : Vec Ideal S1x4096x1024 .f32) (j : Fin 8) (k : Fin 512) (e : Fin 1024) :
    slab x1 j (ix3 (0 : Fin 1) k e)
      = x1 (ix3 (0 : Fin 1) (⟨512 * j.val + k.val, by have := j.isLt; have := k.isLt; omega⟩ : Fin 4096) e) := by
  unfold slab
  refine congrArg x1 (funext fun a => Fin.ext ?_)
  match a with
  | ⟨0, _⟩ => rfl
  | ⟨1, _⟩ =>
    show 512 * j.val + 1 * k.val = 512 * j.val + k.val
    omega
  | ⟨2, _⟩ =>
    show 0 + 1 * e.val = e.val
    omega

end Cert.KernelIdeal.Step

end
-- ==== Proof.LibOnlineSoftmax.lean ====
/-
  The running form of a softmax-weighted average, for one query against the rows of one batch.

  Rows arrive in runs.  After the first K rows the running state is the largest score so far, the sum of
  exp (score - largest) over those rows, and the same sum weighted by one feature column.  Taking in a further run of C
  rows rescales the two sums by exp (old largest - new largest) and adds the run's own terms; this file proves that the
  rescaled state is again the state of the first K + C rows, and that the quotient of the two sums over all rows is the
  softmax-weighted average of the feature column.
-/
import Mathlib
import Idealize.ShloMosaic.PureOps.Ideal

noncomputable section

namespace Pooling

open Idealize.ShloMosaic
open scoped BigOperators

/-- The largest of the first K scores, as an extended real (minus infinity when K = 0). -/
def runMax (σ : ℕ → ℝ) (K : ℕ) : EReal := (Finset.range K).sup fun n => (σ n : EReal)

/-- The sum over the first K rows of exp (score - largest). -/
def runDen (σ : ℕ → ℝ) (K : ℕ) : ℝ := ∑ n ∈ Finset.range K, Real.exp (σ n - (runMax σ K).toReal)

/-- The same sum weighted by a feature column. -/
def runNum (σ ξ : ℕ → ℝ) (K : ℕ) : ℝ := ∑ n ∈ Finset.range K, Real.exp (σ n - (runMax σ K).toReal) * ξ n

theorem runMax_zero (σ : ℕ → ℝ) : runMax σ 0 = ⊥ := by simp [runMax]
theorem runDen_zero (σ : ℕ → ℝ) : runDen σ 0 = 0 := by simp [runDen]
theorem runNum_zero (σ ξ : ℕ → ℝ) : runNum σ ξ 0 = 0 := by simp [runNum]

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With at least one row, the largest score so far is a real number. -/
private theorem runMax_coe (σ : ℕ → ℝ) {K : ℕ} (hK : 0 < K) :
    ∃ μ : ℝ, runMax σ K = (μ : EReal) := by
  refine ⟨(runMax σ K).toReal, (EReal.coe_toReal ?_ ?_).symm⟩
  · apply ne_of_lt
    rw [runMax, Finset.sup_lt_iff bot_lt_top]
    intro n _
    exact EReal.coe_lt_top _
  · apply ne_of_gt
    refine lt_of_lt_of_le (EReal.bot_lt_coe (σ 0)) ?_
    exact Finset.le_sup (f := fun n => (σ n : EReal)) (Finset.mem_range.mpr hK)

/-- The largest score after a further run of C rows. -/
theorem runMax_add (σ : ℕ → ℝ) (K C : ℕ) :
    max (runMax σ K) ((Finset.univ : Finset (Fin C)).fold max (⊥ : EReal) fun k => (σ (K + k.val) : EReal))
      = runMax σ (K + C) := by
  apply eq_of_forall_ge_iff
  intro c
  simp only [runMax, max_le_iff, Finset.sup_le_iff, Finset.fold_max_le, Finset.mem_range, Finset.mem_univ,
    true_implies, bot_le, true_and]
  constructor
  · rintro ⟨h1, h2⟩ n hn
    by_cases h : n < K
    · exact h1 n h
    · have h3 := h2 ⟨n - K, by omega⟩
      have h4 : K + (n - K) = n := by omega
      simpa only [h4] using h3
  · intro h
    exact ⟨fun n hn => h n (by omega), fun k => h _ (by have := k.isLt; omega)⟩

/-- The state of the first K rows, rescaled to a later largest score μ'. -/
private theorem rescale (σ ξ : ℕ → ℝ) (K : ℕ) (μ' : ℝ) :
    Ideal.exp (runMax σ K - (μ' : EReal)) * (runNum σ ξ K : EReal)
      = ((∑ n ∈ Finset.range K, Real.exp (σ n - μ') * ξ n : ℝ) : EReal) := by
  rcases Nat.eq_zero_or_pos K with hK | hK
  · subst hK
    simp [runMax_zero, runNum_zero, EReal.bot_sub]
  · obtain ⟨μ, hμ⟩ := runMax_coe σ hK
    rw [runNum, hμ, EReal.toReal_coe, ← EReal.coe_sub, Ideal.exp_coe, ← EReal.coe_mul, Finset.mul_sum]
    congr 1
    refine Finset.sum_congr rfl fun n _ => ?_
    rw [← mul_assoc, ← Real.exp_add]
    congr 2
    ring

/-- The rescaled weighted sum plus the run's own terms (stated early: the unweighted sum is its case ξ = 1). -/
private theorem rescale_add (σ ξ : ℕ → ℝ) (K C : ℕ) (hC : 0 < C) :
    Ideal.exp (runMax σ K - runMax σ (K + C)) * (runNum σ ξ K : EReal)
        + ∑ k : Fin C, Ideal.exp ((σ (K + k.val) : EReal) - runMax σ (K + C)) * (ξ (K + k.val) : EReal)
      = (runNum σ ξ (K + C) : EReal) := by
  obtain ⟨μ', hμ'⟩ := runMax_coe σ (show 0 < K + C by omega)
  have hrun : ∑ k : Fin C, Ideal.exp ((σ (K + k.val) : EReal) - (μ' : EReal)) * (ξ (K + k.val) : EReal)
      = ((∑ k ∈ Finset.range C, Real.exp (σ (K + k) - μ') * ξ (K + k) : ℝ) : EReal) := by
    rw [coe_sum, ← Fin.sum_univ_eq_sum_range (fun k => ((Real.exp (σ (K + k) - μ') * ξ (K + k) : ℝ) : EReal)) C]
    refine Finset.sum_congr rfl fun k _ => ?_
    rw [← EReal.coe_sub, Ideal.exp_coe, ← EReal.coe_mul]
  rw [hμ', rescale, hrun, ← EReal.coe_add, runNum, hμ', EReal.toReal_coe, Finset.sum_range_add]

/-- The rescaled sum of exponentials plus the run's own terms. -/
theorem runDen_add (σ : ℕ → ℝ) (K C : ℕ) (hC : 0 < C) :
    Ideal.exp (runMax σ K - runMax σ (K + C)) * (runDen σ K : EReal)
        + ∑ k : Fin C, Ideal.exp ((σ (K + k.val) : EReal) - runMax σ (K + C))
      = (runDen σ (K + C) : EReal) := by
  have hone : ∀ K, runDen σ K = runNum σ (fun _ => 1) K := by
    intro K
    simp only [runDen, runNum, mul_one]
  have h := rescale_add σ (fun _ => 1) K C hC
  simpa only [hone, EReal.coe_one, mul_one] using h

/-- The rescaled weighted sum plus the run's own terms. -/
theorem runNum_add (σ ξ : ℕ → ℝ) (K C : ℕ) (hC : 0 < C) :
    Ideal.exp (runMax σ K - runMax σ (K + C)) * (runNum σ ξ K : EReal)
        + ∑ k : Fin C, Ideal.exp ((σ (K + k.val) : EReal) - runMax σ (K + C)) * (ξ (K + k.val) : EReal)
      = (runNum σ ξ (K + C) : EReal) := by
  exact rescale_add σ ξ K C hC

/-- With at least one row, the sum of exponentials is positive. -/
private theorem runDen_pos (σ : ℕ → ℝ) {N : ℕ} (hN : 0 < N) : 0 < runDen σ N := by
  apply Finset.sum_pos
  · intro n _
    exact Real.exp_pos _
  · exact ⟨0, Finset.mem_range.mpr hN⟩

/-- Over all N rows, the quotient of the two running sums is the average of the feature column under the softmax
    weights exp (score - largest) / (sum of those), each weight formed before it multiplies its feature. -/
theorem quotient_eq (σ ξ : ℕ → ℝ) (N : ℕ) (hN : 0 < N) (ninf zero : EReal) (hninf : ninf = ⊥) (hzero : zero = 0) :
    Ideal.div (runNum σ ξ N : EReal) (runDen σ N : EReal)
      = ∑ n : Fin N,
          Ideal.div
              (Ideal.exp ((σ n.val : EReal) - max ninf ((Finset.univ : Finset (Fin N)).fold max ninf fun k => (σ k.val : EReal))))
              (zero + ∑ j : Fin N,
                Ideal.exp ((σ j.val : EReal) - max ninf ((Finset.univ : Finset (Fin N)).fold max ninf fun k => (σ k.val : EReal))))
            * (ξ n.val : EReal) := by
  subst hninf hzero
  have hfold : max (⊥ : EReal) ((Finset.univ : Finset (Fin N)).fold max (⊥ : EReal) fun k => (σ k.val : EReal))
      = runMax σ N := by
    have h := runMax_add σ 0 N
    simp only [runMax_zero, zero_add] at h
    exact h
  obtain ⟨μ, hμ⟩ := runMax_coe σ hN
  have hL : runDen σ N ≠ 0 := (runDen_pos σ hN).ne'
  have hden : ∑ j : Fin N, Ideal.exp ((σ j.val : EReal) - (μ : EReal)) = (runDen σ N : EReal) := by
    rw [runDen, hμ, EReal.toReal_coe, coe_sum,
      ← Fin.sum_univ_eq_sum_range (fun n => ((Real.exp (σ n - μ) : ℝ) : EReal)) N]
    refine Finset.sum_congr rfl fun k _ => ?_
    rw [← EReal.coe_sub, Ideal.exp_coe]
  rw [hfold, hμ, zero_add, hden, Ideal.div_coe hL]
  have hterm : ∀ n : Fin N,
      Ideal.div (Ideal.exp ((σ n.val : EReal) - (μ : EReal))) (runDen σ N : EReal) * (ξ n.val : EReal)
        = ((Real.exp (σ n.val - μ) * (1 / runDen σ N) * ξ n.val : ℝ) : EReal) := by
    intro n
    rw [Ideal.div_coe hL, ← EReal.coe_sub, Ideal.exp_coe, ← EReal.coe_mul, ← EReal.coe_mul]
  simp only [hterm]
  rw [Fin.sum_univ_eq_sum_range (fun n => ((Real.exp (σ n - μ) * (1 / runDen σ N) * ξ n : ℝ) : EReal)) N,
    ← coe_sum, ← EReal.coe_mul]
  congr 1
  rw [runNum, hμ, EReal.toReal_coe, Finset.sum_mul]
  refine Finset.sum_congr rfl fun n _ => ?_
  ring

end Pooling

end
-- ==== Proof.Spec.lean ====
/-
  Softmax pooling, entry by entry.

  For a batch b and a query q, the score of row n is the inner product of the query with the row's features.  The pooled
  feature at column d is the sum over the rows of  exp (score - top) / (sum of exp (score - top))  times the row's
  feature, where top is the largest score of the batch's rows.  This is written over extended-real arrays exactly in the
  order in which the plain program forms it: the maximum folded from minus infinity and once more against minus infinity,
  the denominator started from zero, each weight divided before it multiplies its feature.
  For arrays whose entries are real the scores and features are also given as real sequences indexed by the row number.
-/
import Idealize.ShloMosaic.Lib.ValueIdx

noncomputable section

namespace Pooling

open Idealize.ShloMosaic Idealize.ShloMosaic.ValueIdx
open scoped BigOperators

/-- The feature array: 8 batches of 16384 rows of 1024 features. -/
abbrev SX : Shape := ⟨3, ![8, 16384, 1024]⟩
/-- The queries: 64 of them, 1024 features each. -/
abbrev SQ : Shape := ⟨2, ![64, 1024]⟩
/-- The pooled features: per batch and query, 1024 features. -/
abbrev SO : Shape := ⟨3, ![8, 64, 1024]⟩

/-- The word of minus infinity and the word of zero, as extended reals. -/
abbrev ninf : EReal := Ideal.ofBits .f32 0xFF800000#32
abbrev zero : EReal := Ideal.ofBits .f32 0x00000000#32

/-- The score of query q against row n of batch b. -/
def score (X : SX.Idx → EReal) (Q : SQ.Idx → EReal) (b : Fin 8) (q : Fin 64) (n : Fin 16384) : EReal :=
  ∑ d : Fin 1024, Q (ix2 q d) * X (ix3 b n d)

/-- The largest score of batch b for query q. -/
def top (X : SX.Idx → EReal) (Q : SQ.Idx → EReal) (b : Fin 8) (q : Fin 64) : EReal :=
  max ninf ((Finset.univ : Finset (Fin 16384)).fold max ninf fun n => score X Q b q n)

/-- The pooled feature at (b, q, d). -/
def pooledAt (X : SX.Idx → EReal) (Q : SQ.Idx → EReal) (b : Fin 8) (q : Fin 64) (d : Fin 1024) : EReal :=
  ∑ n : Fin 16384,
    Ideal.div (Ideal.exp (score X Q b q n - top X Q b q))
        (zero + ∑ j : Fin 16384, Ideal.exp (score X Q b q j - top X Q b q))
      * X (ix3 b n d)

/-- The pooled array. -/
def pooled (X : SX.Idx → EReal) (Q : SQ.Idx → EReal) : SO.Idx → EReal :=
  fun i => pooledAt X Q (i 0) (i 1) (i 2)

/-- The scores of (b, q) as a real sequence over the row number (zero past the last row). -/
def scoreR (Xr : SX.Idx → ℝ) (Qr : SQ.Idx → ℝ) (b : Fin 8) (q : Fin 64) (n : ℕ) : ℝ :=
  if h : n < 16384 then ∑ d : Fin 1024, Qr (ix2 q d) * Xr (ix3 b ⟨n, h⟩ d) else 0

/-- Column d of batch b as a real sequence over the row number (zero past the last row). -/
def featR (Xr : SX.Idx → ℝ) (b : Fin 8) (d : Fin 1024) (n : ℕ) : ℝ :=
  if h : n < 16384 then Xr (ix3 b ⟨n, h⟩ d) else 0

end Pooling

end
-- ==== Proof.Holds.lean ====
/-
  The running state holds the running softmax of the rows taken in so far.

  For a batch b whose features and queries are real, a state (largest scores, sums of exponentials, weighted feature
  sums) HOLDS the first K rows when, for every query r, its first component is the largest of the first K scores, its
  second the sum of exp (score - largest) over them, and its third, at every feature column d, that sum weighted by the
  column.  The start state holds no rows; taking in a run of 512 further rows, or a tile of 4096, keeps the property; and
  a state that holds all 16384 rows has, as its quotient, the softmax pooling of the specification.
-/
import proofs.«136844_j29454885716437_2_alg».proof.Proof.StepIdx
import proofs.«136844_j29454885716437_2_alg».proof.Proof.LibOnlineSoftmax
import proofs.«136844_j29454885716437_2_alg».proof.Proof.Spec

noncomputable section

namespace Cert.KernelIdeal.Holds

open Idealize.ShloMosaic Idealize.ShloMosaic.ValueIdx Cert.KernelIdeal Pooling
open scoped BigOperators

/-- The state s holds the first K rows of batch b. -/
def Holds (Xr : SX.Idx → ℝ) (Qr : SQ.Idx → ℝ) (b : Fin 8) (K : ℕ) (s : Step.St Ideal) : Prop :=
  ∀ r : Fin 64,
    s.1 (ix2 r (0 : Fin 1)) = runMax (scoreR Xr Qr b r) K
      ∧ s.2.1 (ix2 r (0 : Fin 1)) = ((runDen (scoreR Xr Qr b r) K : ℝ) : EReal)
      ∧ ∀ d : Fin 1024, s.2.2 (ix2 r d) = ((runNum (scoreR Xr Qr b r) (featR Xr b d) K : ℝ) : EReal)

/-! ## Small facts used throughout -/

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => rw [Finset.sum_empty, Finset.sum_empty, EReal.coe_zero]
  | insert a t ha ih => rw [Finset.sum_insert ha, Finset.sum_insert ha, EReal.coe_add, ih]

/-- The word of minus infinity is the least extended real. -/
theorem ninf_eq : Ideal.ofBits .f32 0xFF800000#32 = (⊥ : EReal) := by
  simp [Ideal.ofBits, Ideal.ieee]

/-- The start state holds no rows. -/
theorem start_holds (Xr : SX.Idx → ℝ) (Qr : SQ.Idx → ℝ) (b : Fin 8) : Holds Xr Qr b 0 (Step.startK : Step.St Ideal) := by
  rw [Step.startK_eq]
  intro r
  refine ⟨?_, ?_, fun d => ?_⟩
  · rw [(Step.start_apply r (⟨0, by norm_num⟩ : Fin 1024)).1, ninf_eq, runMax_zero]
  · rw [(Step.start_apply r (⟨0, by norm_num⟩ : Fin 1024)).2.1, Ideal.ofBits_zero_f32, runDen_zero, EReal.coe_zero]
  · rw [(Step.start_apply r d).2.2, Ideal.ofBits_zero_f32, runNum_zero, EReal.coe_zero]

/-- Taking in the run of rows K … K + 511. -/
theorem run_holds (Xr : SX.Idx → ℝ) (Qr : SQ.Idx → ℝ) (b : Fin 8) (q : Vec Ideal S64x1024 .bf16)
    (hq : ∀ (r : Fin 64) (e : Fin 1024), q (ix2 r e) = ((Qr (ix2 r e) : ℝ) : EReal))
    (x : Vec Ideal S1x512x1024 .f32) (K : ℕ) (hK : K + 512 ≤ 16384)
    (hx : ∀ (k : Fin 512) (e : Fin 1024),
      x (ix3 (0 : Fin 1) k e) = ((Xr (ix3 b (⟨K + k.val, by have := k.isLt; omega⟩ : Fin 16384) e) : ℝ) : EReal))
    (s : Step.St Ideal) (hs : Holds Xr Qr b K s) : Holds Xr Qr b (K + 512) (Step.runK q x s) := by
  rw [Step.runK_eq]
  intro r
  obtain ⟨hm, hl, ha⟩ := hs r
  -- every score of the run is the real score of its row
  have hsc : ∀ k : Fin 512, Step.scores q x (ix2 r k) = ((scoreR Xr Qr b r (K + k.val) : ℝ) : EReal) := by
    intro k
    have hk : K + k.val < 16384 := by have := k.isLt; omega
    rw [Step.scores_apply, scoreR, dif_pos hk, coe_sum]
    refine Finset.sum_congr rfl fun e _ => ?_
    rw [hq, hx, EReal.coe_mul]
  -- the new largest score
  have htop : Step.top q x s.1 (ix2 r (0 : Fin 1)) = runMax (scoreR Xr Qr b r) (K + 512) := by
    rw [Step.top_apply, hm, ninf_eq]
    simp only [hsc]
    exact runMax_add (scoreR Xr Qr b r) K 512
  have hscale : Step.scale q x s.1 (ix2 r (0 : Fin 1))
      = Ideal.exp (runMax (scoreR Xr Qr b r) K - runMax (scoreR Xr Qr b r) (K + 512)) := by
    rw [Step.scale_apply, htop, hm]
  have hw : ∀ k : Fin 512, Step.weights q x s.1 (ix2 r k)
      = Ideal.exp (((scoreR Xr Qr b r (K + k.val) : ℝ) : EReal) - runMax (scoreR Xr Qr b r) (K + 512)) := by
    intro k
    rw [Step.weights_apply, hsc, htop]
  refine ⟨htop, ?_, fun d => ?_⟩
  · show Step.den q x s.1 s.2.1 (ix2 r (0 : Fin 1)) = _
    rw [Step.den_apply, hscale, hl]
    refine Eq.trans ?_ (runDen_add (scoreR Xr Qr b r) K 512 (by norm_num))
    exact congrArg (_ + ·) (Finset.sum_congr rfl fun k _ => hw k)
  · show Step.num q x s.1 s.2.2 (ix2 r d) = _
    rw [Step.num_apply, hscale, ha d]
    refine Eq.trans ?_ (runNum_add (scoreR Xr Qr b r) (featR Xr b d) K 512 (by norm_num))
    refine congrArg (_ + ·) (Finset.sum_congr rfl fun k _ => ?_)
    have hk : K + k.val < 16384 := by have := k.isLt; omega
    rw [hw k, hx k d, featR, dif_pos hk]

/-- Taking in the tile of rows K … K + 4095. -/
theorem tile_holds (Xr : SX.Idx → ℝ) (Qr : SQ.Idx → ℝ) (b : Fin 8) (q : Vec Ideal S64x1024 .bf16)
    (hq : ∀ (r : Fin 64) (e : Fin 1024), q (ix2 r e) = ((Qr (ix2 r e) : ℝ) : EReal))
    (x1 : Vec Ideal S1x4096x1024 .f32) (K : ℕ) (hK : K + 4096 ≤ 16384)
    (hx : ∀ (k : Fin 4096) (e : Fin 1024),
      x1 (ix3 (0 : Fin 1) k e) = ((Xr (ix3 b (⟨K + k.val, by have := k.isLt; omega⟩ : Fin 16384) e) : ℝ) : EReal))
    (s : Step.St Ideal) (hs : Holds Xr Qr b K s) : Holds Xr Qr b (K + 4096) (Step.tileK q x1 s) := by
  -- run j of the tile, taken into a state that holds the rows before it
  have step : ∀ (j : Fin 8) (K' : ℕ) (hK' : K' = K + 512 * j.val) (t : Step.St Ideal), Holds Xr Qr b K' t →
      Holds Xr Qr b (K' + 512) (Step.runK q (Step.slab x1 j) t) := by
    intro j K' hK' t ht
    have hj := j.isLt
    refine run_holds Xr Qr b q hq (Step.slab x1 j) K' (by omega) (fun k e => ?_) t ht
    have hk := k.isLt
    rw [Step.slab_apply, hx]
    exact congrArg (fun n : Fin 16384 => ((Xr (ix3 b n e) : ℝ) : EReal))
      (Fin.ext (by show K + (512 * j.val + k.val) = K' + k.val; omega))
  unfold Step.tileK
  have h0 := step 0 K (by have : ((0 : Fin 8) : ℕ) = 0 := rfl; omega) s hs
  have h1 := step 1 (K + 512) (by have : ((1 : Fin 8) : ℕ) = 1 := rfl; omega) _ h0
  have h2 := step 2 (K + 512 + 512) (by have : ((2 : Fin 8) : ℕ) = 2 := rfl; omega) _ h1
  have h3 := step 3 (K + 512 + 512 + 512) (by have : ((3 : Fin 8) : ℕ) = 3 := rfl; omega) _ h2
  have h4 := step 4 (K + 512 + 512 + 512 + 512) (by have : ((4 : Fin 8) : ℕ) = 4 := rfl; omega) _ h3
  have h5 := step 5 (K + 512 + 512 + 512 + 512 + 512) (by have : ((5 : Fin 8) : ℕ) = 5 := rfl; omega) _ h4
  have h6 := step 6 (K + 512 + 512 + 512 + 512 + 512 + 512) (by have : ((6 : Fin 8) : ℕ) = 6 := rfl; omega) _ h5
  have h7 := step 7 (K + 512 + 512 + 512 + 512 + 512 + 512 + 512) (by have : ((7 : Fin 8) : ℕ) = 7 := rfl; omega) _ h6
  have e : K + 512 + 512 + 512 + 512 + 512 + 512 + 512 + 512 = K + 4096 := by omega
  rw [e] at h7
  exact h7

/-- A state that holds all the rows has the specification's pooled features as its quotient. -/
theorem quot_holds (Xr : SX.Idx → ℝ) (Qr : SQ.Idx → ℝ) (X : SX.Idx → EReal) (Q : SQ.Idx → EReal)
    (hX : ∀ i, X i = ((Xr i : ℝ) : EReal)) (hQ : ∀ i, Q i = ((Qr i : ℝ) : EReal)) (b : Fin 8)
    (s : Step.St Ideal) (hs : Holds Xr Qr b 16384 s) (r : Fin 64) (d : Fin 1024) :
    Step.quot s (ix3 (0 : Fin 1) r d) = pooledAt X Q b r d := by
  obtain ⟨_, hl, ha⟩ := hs r
  have hσ : ∀ n : Fin 16384, ((scoreR Xr Qr b r n.val : ℝ) : EReal) = score X Q b r n := by
    intro n
    rw [scoreR, dif_pos n.isLt, score, coe_sum]
    refine Finset.sum_congr rfl fun e _ => ?_
    rw [hQ, hX, EReal.coe_mul]
  have hξ : ∀ n : Fin 16384, ((featR Xr b d n.val : ℝ) : EReal) = X (ix3 b n d) := by
    intro n
    rw [featR, dif_pos n.isLt, hX]
  rw [Step.quot_apply, ha d, hl,
    quotient_eq (scoreR Xr Qr b r) (featR Xr b d) 16384 (by norm_num) ninf zero ninf_eq Ideal.ofBits_zero_f32]
  unfold pooledAt Pooling.top
  simp only [hσ, hξ]

end Cert.KernelIdeal.Holds

end
-- ==== Proof.Points.lean ====
/-
  The grid, point by point.

  The 32 grid points run through the 8 batches, four tiles of 4096 rows each.  After the point of tile kv of batch b the
  carried state holds the first 4096 (kv + 1) rows of the batch: the batch's first point starts from the start state and
  stores the queries, every later point continues from what the point before left.  At a batch's last point the output
  block is the quotient of a state that holds all 16384 rows, which is the specification's pooled block of that batch;
  these blocks are written back to block (b, 0, 0) of the result and together cover it.
-/
import proofs.«136844_j29454885716437_2_alg».proof.Proof.Gen.KernelIdeal.Value
import proofs.«136844_j29454885716437_2_alg».proof.Proof.PiecesA
import proofs.«136844_j29454885716437_2_alg».proof.Proof.PiecesB
import proofs.«136844_j29454885716437_2_alg».proof.Proof.PiecesC
import proofs.«136844_j29454885716437_2_alg».proof.Proof.Holds
import proofs.«136844_j29454885716437_2_alg».proof.Proof.Spec
import Idealize.ShloMosaic.Lib.Pipeline.Value
import Idealize.ShloMosaic.Lib.ValueIdx

set_option maxRecDepth 16384

noncomputable section

namespace Cert.KernelIdeal.Points

open Cert.KernelIdeal Cert.KernelIdeal.Gen Cert.KernelIdeal.Value Cert.KernelIdeal.Holds Pooling
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The printed index maps over the grid: the queries' window stays at block (0, 0); the features' window is at block
    (batch, tile, 0); the result's window at block (batch, 0, 0). -/
theorem idx_facts : ∀ t : Fin cfg0.N,
    win0_0.index t (0 : Fin 2) = 0 ∧ win0_0.index t (1 : Fin 2) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The queries' block at any point is the query array. -/
theorem iblk0_apply (c : Dev nD) (t : Fin cfg0.N) (r : Fin 64) (e : Fin 1024) :
    iblk m c 0 t (ix2 r e) = m ((c : Thread nD τ).loc main_arg1) (ix2 r e) := by
  obtain ⟨e0, e1, -⟩ := idx_facts t
  show V m c main_arg1 (((cfg0.win 0).blk t).view.emb (ix2 r e)) = V m c main_arg1 (ix2 r e)
  refine congrArg _ (funext fun a => Fin.ext ?_)
  match a with
  | ⟨0, _⟩ => show win0_0.index t (0 : Fin 2) * 64 + 1 * r.val = r.val; omega
  | ⟨1, _⟩ => show win0_0.index t (1 : Fin 2) * 1024 + 1 * e.val = e.val; omega

/-- The features' block at point t is tile t % 4 of batch t / 4. -/
theorem iblk1_apply (c : Dev nD) (t : Fin cfg0.N) (b : Fin 8) (hb : b.val = t.val / 4) (k : Fin 4096) (e : Fin 1024) :
    iblk m c 1 t (ix3 (0 : Fin 1) k e)
      = m ((c : Thread nD τ).loc main_arg0)
          (ix3 b (⟨4096 * (t.val % 4) + k.val, by have := k.isLt; omega⟩ : Fin 16384) e) := by
  obtain ⟨-, -, e2, e3, e4, -⟩ := idx_facts t
  show V m c main_arg0 (((cfg0.win 1).blk t).view.emb (ix3 (0 : Fin 1) k e)) = V m c main_arg0 (ix3 b _ e)
  refine congrArg _ (funext fun a => Fin.ext ?_)
  match a with
  | ⟨0, _⟩ => show win0_1.index t (0 : Fin 3) * 1 + 1 * 0 = b.val; omega
  | ⟨1, _⟩ => show win0_1.index t (1 : Fin 3) * 4096 + 1 * k.val = 4096 * (t.val % 4) + k.val; omega
  | ⟨2, _⟩ => show win0_1.index t (2 : Fin 3) * 1024 + 1 * e.val = e.val; omega

/-- The pooled array at an index given by its coordinates. -/
theorem pooled_at (X : SX.Idx → EReal) (Q : SQ.Idx → EReal) (b : Fin 8) (r : Fin 64) (d : Fin 1024) :
    pooled X Q (ix3 b r d) = pooledAt X Q b r d := rfl

/-- The carried state after point n. -/
def stAt (c : Dev nD) (n : ℕ) (h : n < cfg0.N) : Step.St Ideal :=
  ((outsAt0 m c n h).2.1, (outsAt0 m c n h).2.2.1, (outsAt0 m c n h).2.2.2.1)

section
variable (c : Dev nD) (Xr : SX.Idx → ℝ) (Qr : SQ.Idx → ℝ)
  (hX : ∀ i, m ((c : Thread nD τ).loc main_arg0) i = ((Xr i : ℝ) : EReal))
  (hQ : ∀ i, m ((c : Thread nD τ).loc main_arg1) i = ((Qr i : ℝ) : EReal))
include hX hQ

/-- The tile of point t taken into a state that holds the batch's rows before it. -/
theorem tile_at (t : Fin cfg0.N) (b : Fin 8) (hb : b.val = t.val / 4) (q : Vec Ideal S64x1024 .bf16)
    (hq : ∀ (r : Fin 64) (e : Fin 1024), q (ix2 r e) = ((Qr (ix2 r e) : ℝ) : EReal))
    (s : Step.St Ideal) (hs : Holds Xr Qr b (4096 * (t.val % 4)) s) :
    Holds Xr Qr b (4096 * (t.val % 4) + 4096) (Step.tileK q (iblk m c 1 t) s) :=
  tile_holds Xr Qr b q hq (iblk m c 1 t) (4096 * (t.val % 4)) (by omega)
    (fun k e => (iblk1_apply m c t b hb k e).trans (hX _)) s hs

/-- After every point the carried state holds the batch's rows so far, and the stored queries are the queries. -/
theorem holds_at : ∀ (n : ℕ) (h : n < cfg0.N) (b : Fin 8), b.val = n / 4 →
    Holds Xr Qr b (4096 * (n % 4) + 4096) (stAt m c n h)
      ∧ ∀ (r : Fin 64) (e : Fin 1024), (outsAt0 m c n h).2.2.2.2 (ix2 r e) = ((Qr (ix2 r e) : ℝ) : EReal) := by
  intro n
  induction n with
  | zero =>
    intro h b hb
    have hq : ∀ (r : Fin 64) (e : Fin 1024),
        (Step.queriesK (iblk m c 0 ⟨0, h⟩) : Vec Ideal S64x1024 .bf16) (ix2 r e) = ((Qr (ix2 r e) : ℝ) : EReal) := fun r e => by
      rw [Step.queriesK_eq]; exact (iblk0_apply m c ⟨0, h⟩ r e).trans (hQ _)
    unfold stAt
    rw [outsAt0_A m c ⟨0, h⟩ rfl (by dsimp only; omega)]
    dsimp only
    rw [Pieces.sout_A_0, Pieces.sout_A_1, Pieces.sout_A_2, Pieces.sout_A_3]
    exact ⟨tile_at m c Xr Qr hX hQ ⟨0, h⟩ b hb _ hq _ (start_holds Xr Qr b), hq⟩
  | succ n ih =>
    intro h b hb
    have hN : cfg0.N = 32 := N_0
    by_cases h0 : (n + 1) % 4 = 0
    · have h1 : ¬(n + 1) % 4 = 3 := by omega
      have hq : ∀ (r : Fin 64) (e : Fin 1024),
          (Step.queriesK (iblk m c 0 ⟨n + 1, h⟩) : Vec Ideal S64x1024 .bf16) (ix2 r e) = ((Qr (ix2 r e) : ℝ) : EReal) := fun r e => by
        rw [Step.queriesK_eq]; exact (iblk0_apply m c ⟨n + 1, h⟩ r e).trans (hQ _)
      unfold stAt
      rw [outsAt0_A m c ⟨n + 1, h⟩ h0 h1]
      dsimp only
      rw [Pieces.sout_A_0, Pieces.sout_A_1, Pieces.sout_A_2, Pieces.sout_A_3]
      have key := tile_at m c Xr Qr hX hQ ⟨n + 1, h⟩ b hb _ hq _
        (by show Holds Xr Qr b (4096 * ((n + 1) % 4)) _; rw [h0]; exact start_holds Xr Qr b)
      exact ⟨key, hq⟩
    · obtain ⟨ihs, ihq⟩ := ih (Nat.lt_of_succ_lt h) b (by omega)
      have hK : 4096 * (n % 4) + 4096 = 4096 * ((n + 1) % 4) := by omega
      rw [hK] at ihs
      by_cases h1 : (n + 1) % 4 = 3
      · unfold stAt
        rw [outsAt0_C m c ⟨n + 1, h⟩ h0 h1]
        dsimp only
        rw [Pieces.sout_C_0, Pieces.sout_C_1, Pieces.sout_C_2]
        simp only [Nat.add_sub_cancel]
        exact ⟨tile_at m c Xr Qr hX hQ ⟨n + 1, h⟩ b hb _ ihq _ ihs, ihq⟩
      · unfold stAt
        rw [outsAt0_B m c ⟨n + 1, h⟩ h0 h1]
        dsimp only
        rw [Pieces.sout_B_0, Pieces.sout_B_1, Pieces.sout_B_2]
        simp only [Nat.add_sub_cancel]
        exact ⟨tile_at m c Xr Qr hX hQ ⟨n + 1, h⟩ b hb _ ihq _ ihs, ihq⟩

/-- What a batch's last point writes back is the batch's block of the specification's pooled array. -/
theorem flushed_eq (t : Fin cfg0.N) (hf : (cfg0.win 2).flush t = true) :
    (dats m 0 c).flushed 2 t
      = ((cfg0.win 2).blk t).view.read (Elt Ideal)
          (pooled (m ((c : Thread nD τ).loc main_arg0)) (m ((c : Thread nD τ).loc main_arg1))) := by
  have hN : cfg0.N = 32 := N_0
  have h1 : t.val % 4 = 3 := (flush0_2 t).mp hf
  have h0 : ¬t.val % 4 = 0 := by omega
  have hlt : t.val - 1 < cfg0.N := Nat.lt_of_le_of_lt (Nat.sub_le _ _) t.isLt
  have hb8 : t.val / 4 < 8 := by have := t.isLt; omega
  obtain ⟨b, hb⟩ : ∃ b : Fin 8, b.val = t.val / 4 := ⟨⟨_, hb8⟩, rfl⟩
  obtain ⟨ihs, ihq⟩ := holds_at m c Xr Qr hX hQ (t.val - 1) hlt b (by omega)
  have hK : 4096 * ((t.val - 1) % 4) + 4096 = 4096 * (t.val % 4) := by omega
  rw [hK] at ihs
  have hall := tile_at m c Xr Qr hX hQ t b hb _ ihq _ ihs
  have hK2 : 4096 * (t.val % 4) + 4096 = 16384 := by omega
  rw [hK2] at hall
  obtain ⟨-, -, -, -, -, e5, e6, e7⟩ := idx_facts t
  rw [flushed2_C m c t h0 h1, Pieces.out_C_2]
  refine funext fun j => ?_
  rw [View.read_apply]
  refine Eq.trans (b := Step.quot (F := Ideal) _ ((cfg0.win 2).xinj (grid0.coords t) j)) rfl ?_
  have hj0 : (j 0).val < 1 := (j 0).isLt
  have hj1 : (j 1).val < 64 := (j 1).isLt
  have hj2 : (j 2).val < 1024 := (j 2).isLt
  obtain ⟨r, hr⟩ : ∃ r : Fin 64, r.val = (j 1).val := ⟨⟨_, hj1⟩, rfl⟩
  obtain ⟨d, hd⟩ : ∃ d : Fin 1024, d.val = (j 2).val := ⟨⟨_, hj2⟩, rfl⟩
  have hx : (cfg0.win 2).xinj (grid0.coords t) j = ix3 (0 : Fin 1) r d :=
    funext fun a => Fin.ext (by
      match a with
      | ⟨0, _⟩ => show (j 0).val = 0; omega
      | ⟨1, _⟩ => show (j 1).val = r.val; omega
      | ⟨2, _⟩ => show (j 2).val = d.val; omega)
  have he : ((cfg0.win 2).blk t).view.emb j = ix3 b r d :=
    funext fun a => Fin.ext (by
      match a with
      | ⟨0, _⟩ => show win0_2.index t (0 : Fin 3) * 1 + 1 * (j 0).val = b.val; omega
      | ⟨1, _⟩ => show win0_2.index t (1 : Fin 3) * 64 + 1 * (j 1).val = r.val; omega
      | ⟨2, _⟩ => show win0_2.index t (2 : Fin 3) * 1024 + 1 * (j 2).val = d.val; omega)
  rw [hx, he, cast_eq]
  exact (quot_holds Xr Qr (m ((c : Thread nD τ).loc main_arg0)) (m ((c : Thread nD τ).loc main_arg1)) hX hQ b _ hall r d).trans
    (pooled_at _ _ b r d).symm

end

/-- An index of the result is in point t's block iff each coordinate is in the block's range on its axis. -/
theorem mem_blk (t : Fin cfg0.N) (i : S8x64x1024.Idx) :
    i ∈ ((cfg0.win 2).blk t).view.set ↔ ∀ a : Fin 3, win0_2.index t a * S1x64x1024.size a ≤ (i a).val ∧ (i a).val < win0_2.index t a * S1x64x1024.size a + S1x64x1024.size a := by
  show i ∈ ((View.whole main_v0).slice (win0_2.rect t)).set ↔ _
  rw [View.set_slice_whole, Rect.mem_set_unit]
  exact Iff.rfl

/-- Every index of the result is in the block written back at the last point of its batch. -/
theorem cover (i : S8x64x1024.Idx) : ∃ t : Fin cfg0.N, (cfg0.win 2).flush t = true ∧ i ∈ ((cfg0.win 2).blk t).view.set := by
  have hN : cfg0.N = 32 := N_0
  have hi0 : (i 0).val < 8 := (i 0).isLt
  have hi1 : (i 1).val < 64 := (i 1).isLt
  have hi2 : (i 2).val < 1024 := (i 2).isLt
  have hlt : 4 * (i 0).val + 3 < cfg0.N := by rw [hN]; omega
  obtain ⟨t, ht⟩ : ∃ t : Fin cfg0.N, t.val = 4 * (i 0).val + 3 := ⟨⟨_, hlt⟩, rfl⟩
  obtain ⟨-, -, -, -, -, e5, e6, e7⟩ := idx_facts t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 1024 ≤ (i 2).val ∧ (i 2).val < win0_2.index t (2 : Fin 3) * 1024 + 1024; omega

/-- After the run the result array is the specification's pooled array of the two argument arrays. -/
theorem final (c : Dev nD) (Xr : SX.Idx → ℝ) (Qr : SQ.Idx → ℝ)
    (hX : ∀ i, m ((c : Thread nD τ).loc main_arg0) i = ((Xr i : ℝ) : EReal))
    (hQ : ∀ i, m ((c : Thread nD τ).loc main_arg1) i = ((Qr i : ℝ) : EReal)) :
    (dats m 0 c).arrAt 2 cfg0.N = pooled (m ((c : Thread nD τ).loc main_arg0)) (m ((c : Thread nD τ).loc main_arg1)) :=
  (dats m 0 c).arrAt_eq_of_cover 2 _ (fun t hf => flushed_eq m c Xr Qr hX hQ t hf) cover

end Cert.KernelIdeal.Points

end
-- ==== Proof.RefSide.lean ====
/-
  The plain program's result, entry by entry, is the softmax pooling of the specification: its scores are the inner
  products of feature rows with queries (the factors in the other order), transposed so that the rows run along the last
  axis; the maximum along that axis, the exponentials, their sum, the quotient and the final contraction against the
  features are the specification's, term for term.
-/
import proofs.«136844_j29454885716437_2_alg».proof.Proof.Gen.ReferenceIdeal.Read
import proofs.«136844_j29454885716437_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The composed index functions, at an index given by its coordinates -/

theorem lidx13 (b : Fin 8) (q : Fin 64) (d : Fin 1024) (n : Fin 16384) :
    lidx_main_v13 (ix3 b q d) n = ix3 b q n :=
  funext fun a => Fin.ext (by match a with | ⟨0, _⟩ => rfl | ⟨1, _⟩ => rfl | ⟨2, _⟩ => rfl)

theorem ridx13 (b : Fin 8) (q : Fin 64) (d : Fin 1024) (n : Fin 16384) :
    ridx_main_v13 (ix3 b q d) n = ix3 b n d :=
  funext fun a => Fin.ext (by match a with | ⟨0, _⟩ => rfl | ⟨1, _⟩ => rfl | ⟨2, _⟩ => rfl)

theorem idx1 (b : Fin 8) (q : Fin 64) (n : Fin 16384) :
    idx_main_v1 (ix3 b q n) = ix3 b n q :=
  funext fun a => Fin.ext (by match a with | ⟨0, _⟩ => rfl | ⟨1, _⟩ => rfl | ⟨2, _⟩ => rfl)

theorem lidx0 (b : Fin 8) (n : Fin 16384) (q : Fin 64) (k : Fin 1024) :
    lidx_main_v0 (ix3 b n q) k = ix3 b n k :=
  funext fun a => Fin.ext (by match a with | ⟨0, _⟩ => rfl | ⟨1, _⟩ => rfl | ⟨2, _⟩ => rfl)

theorem ridx0 (b : Fin 8) (n : Fin 16384) (q : Fin 64) (k : Fin 1024) :
    ridx_main_v0 (ix3 b n q) k = ix2 q k :=
  funext fun a => Fin.ext (by match a with | ⟨0, _⟩ => rfl | ⟨1, _⟩ => rfl)

theorem idx6 (b : Fin 8) (q : Fin 64) (n : Fin 16384) :
    idx_main_v6 (ix3 b q n) = ix3 b q (0 : Fin 1) :=
  funext fun a => Fin.ext (by match a with | ⟨0, _⟩ => rfl | ⟨1, _⟩ => rfl | ⟨2, _⟩ => rfl)

theorem idx5 (b : Fin 8) (q : Fin 64) (u : Fin 1) :
    idx_main_v5 (ix3 b q u) = ix2 b q :=
  funext fun a => Fin.ext (by match a with | ⟨0, _⟩ => rfl | ⟨1, _⟩ => rfl)

theorem idx11 (b : Fin 8) (q : Fin 64) (n : Fin 16384) :
    idx_main_v11 (ix3 b q n) = ix3 b q (0 : Fin 1) :=
  funext fun a => Fin.ext (by match a with | ⟨0, _⟩ => rfl | ⟨1, _⟩ => rfl | ⟨2, _⟩ => rfl)

theorem idx10 (b : Fin 8) (q : Fin 64) (u : Fin 1) :
    idx_main_v10 (ix3 b q u) = ix2 b q :=
  funext fun a => Fin.ext (by match a with | ⟨0, _⟩ => rfl | ⟨1, _⟩ => rfl)

theorem idx9 (b : Fin 8) (q : Fin 64) (k : Fin 16384) :
    idx_main_v9 (ix2 b q) k = ix3 b q k :=
  funext fun a => Fin.ext (by match a with | ⟨0, _⟩ => rfl | ⟨1, _⟩ => rfl | ⟨2, _⟩ => rfl)

/-- The pair (b, q) with the row number k put back on the last axis is (b, q, k). -/
theorem lift3 (h : S8x64x16384.Reduces [2] S8x64) (b : Fin 8) (q : Fin 64) (k : Fin 16384) :
    h.lift (ix2 b q) k = ix3 b q k := by
  funext c
  match c with
  | ⟨0, _⟩ => exact Fin.ext rfl
  | ⟨1, _⟩ => exact Fin.ext rfl
  | ⟨2, _⟩ => exact Fin.ext rfl

/-! ## The stages, entry by entry -/

section
variable (x0 : (⟨S8x16384x1024, .f32⟩ : BufTy).Contents (Elt Ideal)) (x1 : (⟨S64x1024, .f32⟩ : BufTy).Contents (Elt Ideal))

/-- The transposed scores: entry (b, q, n) is the score of query q against row n of batch b. -/
theorem v1_at (b : Fin 8) (q : Fin 64) (n : Fin 16384) :
    val_main_v1 (F := Ideal) x0 x1 (ix3 b q n) = Pooling.score x0 x1 b q n := by
  rw [val_main_v1_apply, idx1, val_main_v0_apply]
  unfold Pooling.score
  refine Finset.sum_congr rfl fun k _ => ?_
  rw [lidx0, ridx0, mul_comm]

/-- The maximum along the rows, from minus infinity. -/
theorem v2_at (b : Fin 8) (q : Fin 64) :
    val_main_v2 (F := Ideal) x0 x1 (ix2 b q)
      = (Finset.univ : Finset (Fin 16384)).fold max Pooling.ninf (fun n => Pooling.score x0 x1 b q n) := by
  have h : S8x64x16384.Reduces [2] S8x64 := by decide
  unfold val_main_v2
  rw [Host.reduce_eq_fold_single (FloatOps.maximumf (F := Ideal) (φ := .f32)) (val_main_v1 (F := Ideal) x0 x1)
    (val_main_cst (F := Ideal)) reducesTo_S8x64x16384_S8x64_d2 h h_S_ (ix2 b q)]
  refine congrArg (Finset.fold max Pooling.ninf · Finset.univ) (funext fun k => ?_)
  exact (congrArg (val_main_v1 (F := Ideal) x0 x1) (lift3 h b q k)).trans (v1_at x0 x1 b q k)

/-- The maximum once more against minus infinity: the largest score. -/
theorem v4_at (b : Fin 8) (q : Fin 64) :
    val_main_v4 (F := Ideal) x0 x1 (ix2 b q) = Pooling.top x0 x1 b q := by
  rw [val_main_v4_apply, val_main_v3_apply, val_main_cst_0_apply, v2_at]
  rfl

/-- The exponential of the score less the largest score. -/
theorem v8_at (b : Fin 8) (q : Fin 64) (n : Fin 16384) :
    val_main_v8 (F := Ideal) x0 x1 (ix3 b q n)
      = Ideal.exp (Pooling.score x0 x1 b q n - Pooling.top x0 x1 b q) := by
  rw [val_main_v8_apply, val_main_v7_apply, v1_at, val_main_v6_apply, idx6, val_main_v5_apply, idx5, v4_at,
    Ideal.hostUnary_exp_def, Ideal.subf_def]

/-- The denominator: zero plus the sum of the exponentials over the rows. -/
theorem v9_at (b : Fin 8) (q : Fin 64) :
    val_main_v9 (F := Ideal) x0 x1 (ix2 b q)
      = Pooling.zero + ∑ j : Fin 16384, Ideal.exp (Pooling.score x0 x1 b q j - Pooling.top x0 x1 b q) := by
  rw [val_main_v9_apply, val_main_cst_1_apply, Ideal.ofBits_def]
  refine congrArg (Pooling.zero + ·) (Finset.sum_congr rfl fun j _ => ?_)
  rw [idx9, v8_at]

/-- The weight of row n: its exponential divided by the denominator. -/
theorem v12_at (b : Fin 8) (q : Fin 64) (n : Fin 16384) :
    val_main_v12 (F := Ideal) x0 x1 (ix3 b q n)
      = Ideal.div (Ideal.exp (Pooling.score x0 x1 b q n - Pooling.top x0 x1 b q))
          (Pooling.zero + ∑ j : Fin 16384, Ideal.exp (Pooling.score x0 x1 b q j - Pooling.top x0 x1 b q)) := by
  rw [val_main_v12_apply, v8_at, val_main_v11_apply, idx11, val_main_v10_apply, idx10, v9_at, Ideal.hostDivf_def]

end

/-- The plain program's result array is the pooled array of the specification. -/
theorem ref_eq (x0 : (⟨S8x16384x1024, .f32⟩ : BufTy).Contents (Elt Ideal)) (x1 : (⟨S64x1024, .f32⟩ : BufTy).Contents (Elt Ideal)) :
    val_main_v13 (F := Ideal) x0 x1 = Pooling.pooled x0 x1 := by
  funext i
  obtain ⟨b, q, d, rfl⟩ : ∃ (b : Fin 8) (q : Fin 64) (d : Fin 1024), i = ix3 b q d := ⟨i 0, i 1, i 2, eq_ix3 i⟩
  show _ = Pooling.pooledAt x0 x1 b q d
  rw [val_main_v13_apply]
  unfold Pooling.pooledAt
  refine Finset.sum_congr rfl fun n _ => ?_
  rw [lidx13, ridx13, v12_at]

end Cert.ReferenceIdeal.RefValue

end
-- ==== Proof.Finite.lean ====
/-
  Finite inputs are real arrays: when the precondition's word — "every entry of both arrays has absolute value below
  plus infinity" — is all ones at the ideal values, each entry of the feature array and of the query array is the
  coercion of a real number.
-/
import proofs.«136844_j29454885716437_2_alg».proof.Pre_finite_inputs
import proofs.«136844_j29454885716437_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

/-- The float word of plus infinity reads the top element. -/
private theorem ofBits_inf : Ideal.ofBits .f32 0x7F800000#32 = ⊤ := by
  simp [Ideal.ofBits, Ideal.ieee]

/-- An extended real whose absolute value is below plus infinity is a real number. -/
private theorem real_of_abs_lt_top (x : EReal) (hx : max x (-x) < ⊤) : x = ((x.toReal : ℝ) : EReal) := by
  refine (EReal.coe_toReal ?_ ?_).symm
  · intro h
    rw [h, max_eq_left le_top] at hx
    exact lt_irrefl _ hx
  · intro h
    rw [h, EReal.neg_bot, max_eq_right bot_le] at hx
    exact lt_irrefl _ hx

/-- An array each of whose entries has absolute value below the splat of plus infinity is an array of real numbers. -/
private theorem reals_of_all {s : Shape} (a : FVec Ideal s .f32) (hb : S_.BroadcastsInDim s (![] : Fin 0 → Fin s.rank))
    (hall : ∀ i, cmpf .olt (Host.absf a) (broadcastInDim s ![] hb (constant S_ .f32 0x7F800000#32)) i = 1#1) :
    ∃ X : s.Idx → ℝ, ∀ i, a i = ((X i : ℝ) : EReal) := by
  refine ⟨fun i => (a i).toReal, fun i => real_of_abs_lt_top _ ?_⟩
  have h' : Ideal.cmp .olt (max (a i) (-(a i))) (Ideal.ofBits .f32 0x7F800000#32) = 1#1 := hall i
  have hlt : max (a i) (-(a i)) < Ideal.ofBits .f32 0x7F800000#32 := by
    by_contra hn
    have h0 : Ideal.cmp .olt (max (a i) (-(a i))) (Ideal.ofBits .f32 0x7F800000#32) = 0#1 := by
      simp [Ideal.cmp, hn]
    rw [h0] at h'
    exact absurd h' (by decide)
  rwa [ofBits_inf] at hlt

/-- Under the precondition both arrays are arrays of real numbers. -/
theorem reals_of_pre [Cert.Pre_finite_inputs.Facts] (a0 : FVec Ideal S8x16384x1024 .f32) (a1 : FVec Ideal S64x1024 .f32)
    (h : Cert.Pre_finite_inputs.fn (F := Ideal) a0 a1 = fun _ => 1#1) :
    (∃ Xr : S8x16384x1024.Idx → ℝ, ∀ i, a0 i = ((Xr i : ℝ) : EReal))
      ∧ (∃ Qr : S64x1024.Idx → ℝ, ∀ i, a1 i = ((Qr i : ℝ) : EReal)) := by
  have h0 := congrFun h ValueIdx.ix0
  dsimp only [fn] at h0
  haveI : Subsingleton S_.Idx := ⟨fun a b => funext fun d => d.elim0⟩
  obtain ⟨h1, h2⟩ := IntOp.andi_eq_one.1 h0
  exact ⟨reals_of_all a0 _ (Host.reduce_andi_all _ _ _ _ _ h1), reals_of_all a1 _ (Host.reduce_andi_all _ _ _ _ _ h2)⟩

end Cert.Pre_finite_inputs.Finite

end
-- ==== Proof.lean ====
/-
  Learned attention pooling: for every batch and query, the softmax over the batch's 16384 rows of the query's scores,
  applied to the rows' features.

  The kernel never forms the softmax.  It walks each batch in four tiles of eight runs of 512 rows and keeps, per query,
  the largest score so far, the sum of exp (score - largest) and that sum weighted by each feature column, rescaling the
  two sums by exp (old largest - new largest) whenever the largest score grows; at the batch's last tile it divides the
  weighted sums by the sum.  The plain program computes all scores, subtracts the row-wise maximum, exponentiates,
  normalises each weight and contracts the weights against the features.  Over the extended reals with exact operations
  the two agree when the inputs are finite: the running state after K rows is the state of the first K rows (the
  rescaling identity exp (a - b) exp (s - a) = exp (s - b) and distributivity over real sums), and dividing a finite sum
  by a positive real is dividing each of its terms.  Finiteness is what the precondition gives; it is used to move every
  score, exponential and sum into the reals, where these laws hold.
  The three frame claims are the generated frame runs; the kernel's idealization rewrote nothing.
-/
import proofs.«136844_j29454885716437_2_alg».proof.Defs
import proofs.«136844_j29454885716437_2_alg».proof.Proof.Gen.Kernel
import proofs.«136844_j29454885716437_2_alg».proof.Proof.Gen.Kernel.Skeleton
import proofs.«136844_j29454885716437_2_alg».proof.Proof.Gen.Kernel.Launch
import proofs.«136844_j29454885716437_2_alg».proof.Proof.Gen.Kernel.Points
import proofs.«136844_j29454885716437_2_alg».proof.Proof.Gen.Kernel.Frame
import proofs.«136844_j29454885716437_2_alg».proof.Proof.Gen.KernelIdeal
import proofs.«136844_j29454885716437_2_alg».proof.Proof.Gen.KernelIdeal.Skeleton
import proofs.«136844_j29454885716437_2_alg».proof.Proof.Gen.KernelIdeal.Launch
import proofs.«136844_j29454885716437_2_alg».proof.Proof.Gen.KernelIdeal.Points
import proofs.«136844_j29454885716437_2_alg».proof.Proof.Gen.KernelIdeal.Frame
import proofs.«136844_j29454885716437_2_alg».proof.Proof.Gen.ReferenceIdeal
import proofs.«136844_j29454885716437_2_alg».proof.Proof.Gen.KernelIdeal.Value
import proofs.«136844_j29454885716437_2_alg».proof.Proof.Gen.ReferenceIdeal.Run
import proofs.«136844_j29454885716437_2_alg».proof.Proof.Gen.ReferenceIdeal.Read
import proofs.«136844_j29454885716437_2_alg».proof.Proof.Gen.Pre_finite_inputs
import proofs.«136844_j29454885716437_2_alg».proof.Proof.Points
import proofs.«136844_j29454885716437_2_alg».proof.Proof.RefSide
import proofs.«136844_j29454885716437_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_p : Cert.frame_Kernel := fun m ρ _ => Cert.Kernel.Gen.frame m ρ

/-- So does the kernel read at the ideal values. -/
theorem frame_pi : Cert.frame_KernelIdeal := fun m ρ _ => Cert.KernelIdeal.Gen.frame m ρ

/-- The plain program runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's pooled array of the (finite, hence real) argument arrays. -/
theorem algebraic : Cert.algebraic_KernelIdeal_ReferenceIdeal := by
  intro m ρ m' ρ' hpre hagree
  refine ⟨fun c => Pooling.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Value.run_blocks (F := Ideal) m ρ)
    obtain ⟨⟨Xr, hX⟩, ⟨Qr, hQ⟩⟩ := Cert.Pre_finite_inputs.Finite.reals_of_pre _ _ (hpre c)
    exact Cert.KernelIdeal.Points.final m c Xr Qr hX hQ
  · refine (θ_run Cert.ReferenceIdeal.defs _ _).mono (fun r h c => ⟨?_, (h c).2⟩)
      (Cert.ReferenceIdeal.Value.run (F := Ideal) m' ρ')
    rw [(h c).1, Cert.ReferenceIdeal.Read.val_main_v13_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
